-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x128x240 : Shape := ⟨4, ![4, 32, 128, 240]⟩
abbrev S_ : Shape := ⟨0, ![]⟩

class Facts : Prop where
  bcast_S_S4x32x128x240 : S_.BroadcastsInDim S4x32x128x240 (![] : Fin 0 → Fin S4x32x128x240.rank)
  reducesTo_S4x32x128x240_S_d0_1_2_3 : S4x32x128x240.ReducesTo [0, 1, 2, 3] S_
  h_S_ : 0 < S_.numel

variable [Facts]

def fn {F : FTy → Type} [FloatOps F] (main_arg0 : FVec F S4x32x128x240 .f32) (main_arg1 : FVec F S4x32x128x240 .f32) : IVec S_ 1 :=
  let main_v0 : FVec F S4x32x128x240 .f32 := Host.absf main_arg0
  let main_cst : FVec F S_ .f32 := constant S_ .f32 0x7F800000#32
  let main_v1 : FVec F S4x32x128x240 .f32 := broadcastInDim S4x32x128x240 ![] bcast_S_S4x32x128x240 main_cst
  let main_v2 : IVec S4x32x128x240 1 := cmpf .olt main_v0 main_v1
  let main_c : IVec S_ 1 := constantI S_ 1 1#1
  let main_v3 : IVec S_ 1 := (fun x v => Host.reduce IntOp.andi x v reducesTo_S4x32x128x240_S_d0_1_2_3 h_S_) main_v2 main_c
  let main_v4 : FVec F S4x32x128x240 .f32 := Host.absf main_arg1
  let main_cst_0 : FVec F S_ .f32 := constant S_ .f32 0x7F800000#32
  let main_v5 : FVec F S4x32x128x240 .f32 := broadcastInDim S4x32x128x240 ![] bcast_S_S4x32x128x240 main_cst_0
  let main_v6 : IVec S4x32x128x240 1 := cmpf .olt main_v4 main_v5
  let main_c_1 : IVec S_ 1 := constantI S_ 1 1#1
  let main_v7 : IVec S_ 1 := (fun x v => Host.reduce IntOp.andi x v reducesTo_S4x32x128x240_S_d0_1_2_3 h_S_) main_v6 main_c_1
  let main_v8 : IVec S_ 1 := andi main_v3 main_v7
  main_v8
-- ==== Kernel.lean ====
abbrev S4x32x128x240 : Shape := ⟨4, ![4, 32, 128, 240]⟩
abbrev S128x128x240 : Shape := ⟨3, ![128, 128, 240]⟩
abbrev S128x128x240x24 : Shape := ⟨4, ![128, 128, 240, 24]⟩
abbrev S1x128x240 : Shape := ⟨3, ![1, 128, 240]⟩
abbrev S1x128x240x24 : Shape := ⟨4, ![1, 128, 240, 24]⟩
abbrev S1x128x240x1 : Shape := ⟨4, ![1, 128, 240, 1]⟩
abbrev S1x128x239 : Shape := ⟨3, ![1, 128, 239]⟩
abbrev S1x128x1 : Shape := ⟨3, ![1, 128, 1]⟩
abbrev S1x128x238 : Shape := ⟨3, ![1, 128, 238]⟩
abbrev S1x128x2 : Shape := ⟨3, ![1, 128, 2]⟩
abbrev S1x128x237 : Shape := ⟨3, ![1, 128, 237]⟩
abbrev S1x128x3 : Shape := ⟨3, ![1, 128, 3]⟩
abbrev S1x128x236 : Shape := ⟨3, ![1, 128, 236]⟩
abbrev S1x128x4 : Shape := ⟨3, ![1, 128, 4]⟩
abbrev S1x128x235 : Shape := ⟨3, ![1, 128, 235]⟩
abbrev S1x128x5 : Shape := ⟨3, ![1, 128, 5]⟩
abbrev S1x128x234 : Shape := ⟨3, ![1, 128, 234]⟩
abbrev S1x128x6 : Shape := ⟨3, ![1, 128, 6]⟩
abbrev S1x128x233 : Shape := ⟨3, ![1, 128, 233]⟩
abbrev S1x128x7 : Shape := ⟨3, ![1, 128, 7]⟩
abbrev S1x128x232 : Shape := ⟨3, ![1, 128, 232]⟩
abbrev S1x128x8 : Shape := ⟨3, ![1, 128, 8]⟩
abbrev S1x128x231 : Shape := ⟨3, ![1, 128, 231]⟩
abbrev S1x128x9 : Shape := ⟨3, ![1, 128, 9]⟩
abbrev S1x128x230 : Shape := ⟨3, ![1, 128, 230]⟩
abbrev S1x128x10 : Shape := ⟨3, ![1, 128, 10]⟩
abbrev S1x128x229 : Shape := ⟨3, ![1, 128, 229]⟩
abbrev S1x128x11 : Shape := ⟨3, ![1, 128, 11]⟩
abbrev S1x128x228 : Shape := ⟨3, ![1, 128, 228]⟩
abbrev S1x128x12 : Shape := ⟨3, ![1, 128, 12]⟩
abbrev S1x128x227 : Shape := ⟨3, ![1, 128, 227]⟩
abbrev S1x128x13 : Shape := ⟨3, ![1, 128, 13]⟩
abbrev S1x128x226 : Shape := ⟨3, ![1, 128, 226]⟩
abbrev S1x128x14 : Shape := ⟨3, ![1, 128, 14]⟩
abbrev S1x128x225 : Shape := ⟨3, ![1, 128, 225]⟩
abbrev S1x128x15 : Shape := ⟨3, ![1, 128, 15]⟩
abbrev S1x128x224 : Shape := ⟨3, ![1, 128, 224]⟩
abbrev S1x128x16 : Shape := ⟨3, ![1, 128, 16]⟩
abbrev S1x128x223 : Shape := ⟨3, ![1, 128, 223]⟩
abbrev S1x128x17 : Shape := ⟨3, ![1, 128, 17]⟩
abbrev S1x128x222 : Shape := ⟨3, ![1, 128, 222]⟩
abbrev S1x128x18 : Shape := ⟨3, ![1, 128, 18]⟩
abbrev S1x128x221 : Shape := ⟨3, ![1, 128, 221]⟩
abbrev S1x128x19 : Shape := ⟨3, ![1, 128, 19]⟩
abbrev S1x128x220 : Shape := ⟨3, ![1, 128, 220]⟩
abbrev S1x128x20 : Shape := ⟨3, ![1, 128, 20]⟩
abbrev S1x128x219 : Shape := ⟨3, ![1, 128, 219]⟩
abbrev S1x128x21 : Shape := ⟨3, ![1, 128, 21]⟩
abbrev S1x128x218 : Shape := ⟨3, ![1, 128, 218]⟩
abbrev S1x128x22 : Shape := ⟨3, ![1, 128, 22]⟩
abbrev S1x128x217 : Shape := ⟨3, ![1, 128, 217]⟩
abbrev S1x128x23 : Shape := ⟨3, ![1, 128, 23]⟩
abbrev S4x32x128x240x24 : Shape := ⟨5, ![4, 32, 128, 240, 24]⟩

abbrev nBuf : Space → Nat
  | .hbm => 6
  | .vmem => 6
  | .smem => 0
  | _ => 0

abbrev bufTy : (tb : Table) → Fin (tcTables nBuf tb) → BufTy
  | .hbm, ⟨0, _⟩ => ⟨S4x32x128x240, .f32⟩
  | .hbm, ⟨1, _⟩ => ⟨S4x32x128x240, .f32⟩
  | .hbm, ⟨2, _⟩ => ⟨S128x128x240, .f32⟩
  | .hbm, ⟨3, _⟩ => ⟨S128x128x240, .f32⟩
  | .hbm, ⟨4, _⟩ => ⟨S128x128x240x24, .f32⟩
  | .hbm, ⟨5, _⟩ => ⟨S4x32x128x240x24, .f32⟩
  | .local _ .vmem, ⟨0, _⟩ => ⟨S1x128x240, .f32⟩
  | .local _ .vmem, ⟨1, _⟩ => ⟨S1x128x240, .f32⟩
  | .local _ .vmem, ⟨2, _⟩ => ⟨S1x128x240, .f32⟩
  | .local _ .vmem, ⟨3, _⟩ => ⟨S1x128x240, .f32⟩
  | .local _ .vmem, ⟨4, _⟩ => ⟨S1x128x240x24, .f32⟩
  | .local _ .vmem, ⟨5, _⟩ => ⟨S1x128x240x24, .f32⟩
  | _, _ => ⟨S4x32x128x240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x240x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x32x128x240_S128x128x240 : S4x32x128x240.ShapeCasts S128x128x240
  inb_S1x128x240_S1x128x240_0_0_0 : ∀ a, (![0, 0, 0] : Fin 3 → Nat) a + S1x128x240.size a ≤ S1x128x240.size a
  h_S1x128x240 : 0 < S1x128x240.numel
  shapeCasts_S1x128x240_S1x128x240 : S1x128x240.ShapeCasts S1x128x240
  shapeCasts_S1x128x240_S1x128x240x1 : S1x128x240.ShapeCasts S1x128x240x1
  inb_S1x128x240x24_S1x128x240x1_0_0_0_0 : ∀ a, (![0, 0, 0, 0] : Fin 4 → Nat) a + S1x128x240x1.size a ≤ S1x128x240x24.size a
  h_S1x128x240x1 : 0 < S1x128x240x1.numel
  slices_S1x128x240_o0_0_1_S1x128x239 : S1x128x240.Slices ![0, 0, 1] S1x128x239
  slices_S1x128x240_o0_0_0_S1x128x239 : S1x128x240.Slices ![0, 0, 0] S1x128x239
  concatenates_S1x128x1_S1x128x239_S1x128x240_d2 : Shape.Concatenates [S1x128x1, S1x128x239] S1x128x240 2
  inb_S1x128x240x24_S1x128x240x1_0_0_0_1 : ∀ a, (![0, 0, 0, 1] : Fin 4 → Nat) a + S1x128x240x1.size a ≤ S1x128x240x24.size a
  slices_S1x128x240_o0_0_2_S1x128x238 : S1x128x240.Slices ![0, 0, 2] S1x128x238
  slices_S1x128x240_o0_0_0_S1x128x238 : S1x128x240.Slices ![0, 0, 0] S1x128x238
  concatenates_S1x128x2_S1x128x238_S1x128x240_d2 : Shape.Concatenates [S1x128x2, S1x128x238] S1x128x240 2
  inb_S1x128x240x24_S1x128x240x1_0_0_0_2 : ∀ a, (![0, 0, 0, 2] : Fin 4 → Nat) a + S1x128x240x1.size a ≤ S1x128x240x24.size a
  slices_S1x128x240_o0_0_3_S1x128x237 : S1x128x240.Slices ![0, 0, 3] S1x128x237
  slices_S1x128x240_o0_0_0_S1x128x237 : S1x128x240.Slices ![0, 0, 0] S1x128x237
  concatenates_S1x128x3_S1x128x237_S1x128x240_d2 : Shape.Concatenates [S1x128x3, S1x128x237] S1x128x240 2
  inb_S1x128x240x24_S1x128x240x1_0_0_0_3 : ∀ a, (![0, 0, 0, 3] : Fin 4 → Nat) a + S1x128x240x1.size a ≤ S1x128x240x24.size a
  slices_S1x128x240_o0_0_4_S1x128x236 : S1x128x240.Slices ![0, 0, 4] S1x128x236
  slices_S1x128x240_o0_0_0_S1x128x236 : S1x128x240.Slices ![0, 0, 0] S1x128x236
  concatenates_S1x128x4_S1x128x236_S1x128x240_d2 : Shape.Concatenates [S1x128x4, S1x128x236] S1x128x240 2
  inb_S1x128x240x24_S1x128x240x1_0_0_0_4 : ∀ a, (![0, 0, 0, 4] : Fin 4 → Nat) a + S1x128x240x1.size a ≤ S1x128x240x24.size a
  slices_S1x128x240_o0_0_5_S1x128x235 : S1x128x240.Slices ![0, 0, 5] S1x128x235
  slices_S1x128x240_o0_0_0_S1x128x235 : S1x128x240.Slices ![0, 0, 0] S1x128x235
  concatenates_S1x128x5_S1x128x235_S1x128x240_d2 : Shape.Concatenates [S1x128x5, S1x128x235] S1x128x240 2
  inb_S1x128x240x24_S1x128x240x1_0_0_0_5 : ∀ a, (![0, 0, 0, 5] : Fin 4 → Nat) a + S1x128x240x1.size a ≤ S1x128x240x24.size a
  slices_S1x128x240_o0_0_6_S1x128x234 : S1x128x240.Slices ![0, 0, 6] S1x128x234
  slices_S1x128x240_o0_0_0_S1x128x234 : S1x128x240.Slices ![0, 0, 0] S1x128x234
  concatenates_S1x128x6_S1x128x234_S1x128x240_d2 : Shape.Concatenates [S1x128x6, S1x128x234] S1x128x240 2
  inb_S1x128x240x24_S1x128x240x1_0_0_0_6 : ∀ a, (![0, 0, 0, 6] : Fin 4 → Nat) a + S1x128x240x1.size a ≤ S1x128x240x24.size a
  slices_S1x128x240_o0_0_7_S1x128x233 : S1x128x240.Slices ![0, 0, 7] S1x128x233
  slices_S1x128x240_o0_0_0_S1x128x233 : S1x128x240.Slices ![0, 0, 0] S1x128x233
  concatenates_S1x128x7_S1x128x233_S1x128x240_d2 : Shape.Concatenates [S1x128x7, S1x128x233] S1x128x240 2
  inb_S1x128x240x24_S1x128x240x1_0_0_0_7 : ∀ a, (![0, 0, 0, 7] : Fin 4 → Nat) a + S1x128x240x1.size a ≤ S1x128x240x24.size a
  slices_S1x128x240_o0_0_8_S1x128x232 : S1x128x240.Slices ![0, 0, 8] S1x128x232
  slices_S1x128x240_o0_0_0_S1x128x232 : S1x128x240.Slices ![0, 0, 0] S1x128x232
  concatenates_S1x128x8_S1x128x232_S1x128x240_d2 : Shape.Concatenates [S1x128x8, S1x128x232] S1x128x240 2
  inb_S1x128x240x24_S1x128x240x1_0_0_0_8 : ∀ a, (![0, 0, 0, 8] : Fin 4 → Nat) a + S1x128x240x1.size a ≤ S1x128x240x24.size a
  slices_S1x128x240_o0_0_9_S1x128x231 : S1x128x240.Slices ![0, 0, 9] S1x128x231
  slices_S1x128x240_o0_0_0_S1x128x231 : S1x128x240.Slices ![0, 0, 0] S1x128x231
  concatenates_S1x128x9_S1x128x231_S1x128x240_d2 : Shape.Concatenates [S1x128x9, S1x128x231] S1x128x240 2
  inb_S1x128x240x24_S1x128x240x1_0_0_0_9 : ∀ a, (![0, 0, 0, 9] : Fin 4 → Nat) a + S1x128x240x1.size a ≤ S1x128x240x24.size a
  slices_S1x128x240_o0_0_10_S1x128x230 : S1x128x240.Slices ![0, 0, 10] S1x128x230
  slices_S1x128x240_o0_0_0_S1x128x230 : S1x128x240.Slices ![0, 0, 0] S1x128x230
  concatenates_S1x128x10_S1x128x230_S1x128x240_d2 : Shape.Concatenates [S1x128x10, S1x128x230] S1x128x240 2
  inb_S1x128x240x24_S1x128x240x1_0_0_0_10 : ∀ a, (![0, 0, 0, 10] : Fin 4 → Nat) a + S1x128x240x1.size a ≤ S1x128x240x24.size a
  slices_S1x128x240_o0_0_11_S1x128x229 : S1x128x240.Slices ![0, 0, 11] S1x128x229
  slices_S1x128x240_o0_0_0_S1x128x229 : S1x128x240.Slices ![0, 0, 0] S1x128x229
  concatenates_S1x128x11_S1x128x229_S1x128x240_d2 : Shape.Concatenates [S1x128x11, S1x128x229] S1x128x240 2
  inb_S1x128x240x24_S1x128x240x1_0_0_0_11 : ∀ a, (![0, 0, 0, 11] : Fin 4 → Nat) a + S1x128x240x1.size a ≤ S1x128x240x24.size a
  slices_S1x128x240_o0_0_12_S1x128x228 : S1x128x240.Slices ![0, 0, 12] S1x128x228
  slices_S1x128x240_o0_0_0_S1x128x228 : S1x128x240.Slices ![0, 0, 0] S1x128x228
  concatenates_S1x128x12_S1x128x228_S1x128x240_d2 : Shape.Concatenates [S1x128x12, S1x128x228] S1x128x240 2
  inb_S1x128x240x24_S1x128x240x1_0_0_0_12 : ∀ a, (![0, 0, 0, 12] : Fin 4 → Nat) a + S1x128x240x1.size a ≤ S1x128x240x24.size a
  slices_S1x128x240_o0_0_13_S1x128x227 : S1x128x240.Slices ![0, 0, 13] S1x128x227
  slices_S1x128x240_o0_0_0_S1x128x227 : S1x128x240.Slices ![0, 0, 0] S1x128x227
  concatenates_S1x128x13_S1x128x227_S1x128x240_d2 : Shape.Concatenates [S1x128x13, S1x128x227] S1x128x240 2
  inb_S1x128x240x24_S1x128x240x1_0_0_0_13 : ∀ a, (![0, 0, 0, 13] : Fin 4 → Nat) a + S1x128x240x1.size a ≤ S1x128x240x24.size a
  slices_S1x128x240_o0_0_14_S1x128x226 : S1x128x240.Slices ![0, 0, 14] S1x128x226
  slices_S1x128x240_o0_0_0_S1x128x226 : S1x128x240.Slices ![0, 0, 0] S1x128x226
  concatenates_S1x128x14_S1x128x226_S1x128x240_d2 : Shape.Concatenates [S1x128x14, S1x128x226] S1x128x240 2
  inb_S1x128x240x24_S1x128x240x1_0_0_0_14 : ∀ a, (![0, 0, 0, 14] : Fin 4 → Nat) a + S1x128x240x1.size a ≤ S1x128x240x24.size a
  slices_S1x128x240_o0_0_15_S1x128x225 : S1x128x240.Slices ![0, 0, 15] S1x128x225
  slices_S1x128x240_o0_0_0_S1x128x225 : S1x128x240.Slices ![0, 0, 0] S1x128x225
  concatenates_S1x128x15_S1x128x225_S1x128x240_d2 : Shape.Concatenates [S1x128x15, S1x128x225] S1x128x240 2
  inb_S1x128x240x24_S1x128x240x1_0_0_0_15 : ∀ a, (![0, 0, 0, 15] : Fin 4 → Nat) a + S1x128x240x1.size a ≤ S1x128x240x24.size a
  slices_S1x128x240_o0_0_16_S1x128x224 : S1x128x240.Slices ![0, 0, 16] S1x128x224
  slices_S1x128x240_o0_0_0_S1x128x224 : S1x128x240.Slices ![0, 0, 0] S1x128x224
  concatenates_S1x128x16_S1x128x224_S1x128x240_d2 : Shape.Concatenates [S1x128x16, S1x128x224] S1x128x240 2
  inb_S1x128x240x24_S1x128x240x1_0_0_0_16 : ∀ a, (![0, 0, 0, 16] : Fin 4 → Nat) a + S1x128x240x1.size a ≤ S1x128x240x24.size a
  slices_S1x128x240_o0_0_17_S1x128x223 : S1x128x240.Slices ![0, 0, 17] S1x128x223
  slices_S1x128x240_o0_0_0_S1x128x223 : S1x128x240.Slices ![0, 0, 0] S1x128x223
  concatenates_S1x128x17_S1x128x223_S1x128x240_d2 : Shape.Concatenates [S1x128x17, S1x128x223] S1x128x240 2
  inb_S1x128x240x24_S1x128x240x1_0_0_0_17 : ∀ a, (![0, 0, 0, 17] : Fin 4 → Nat) a + S1x128x240x1.size a ≤ S1x128x240x24.size a
  slices_S1x128x240_o0_0_18_S1x128x222 : S1x128x240.Slices ![0, 0, 18] S1x128x222
  slices_S1x128x240_o0_0_0_S1x128x222 : S1x128x240.Slices ![0, 0, 0] S1x128x222
  concatenates_S1x128x18_S1x128x222_S1x128x240_d2 : Shape.Concatenates [S1x128x18, S1x128x222] S1x128x240 2
  inb_S1x128x240x24_S1x128x240x1_0_0_0_18 : ∀ a, (![0, 0, 0, 18] : Fin 4 → Nat) a + S1x128x240x1.size a ≤ S1x128x240x24.size a
  slices_S1x128x240_o0_0_19_S1x128x221 : S1x128x240.Slices ![0, 0, 19] S1x128x221
  slices_S1x128x240_o0_0_0_S1x128x221 : S1x128x240.Slices ![0, 0, 0] S1x128x221
  concatenates_S1x128x19_S1x128x221_S1x128x240_d2 : Shape.Concatenates [S1x128x19, S1x128x221] S1x128x240 2
  inb_S1x128x240x24_S1x128x240x1_0_0_0_19 : ∀ a, (![0, 0, 0, 19] : Fin 4 → Nat) a + S1x128x240x1.size a ≤ S1x128x240x24.size a
  slices_S1x128x240_o0_0_20_S1x128x220 : S1x128x240.Slices ![0, 0, 20] S1x128x220
  slices_S1x128x240_o0_0_0_S1x128x220 : S1x128x240.Slices ![0, 0, 0] S1x128x220
  concatenates_S1x128x20_S1x128x220_S1x128x240_d2 : Shape.Concatenates [S1x128x20, S1x128x220] S1x128x240 2
  inb_S1x128x240x24_S1x128x240x1_0_0_0_20 : ∀ a, (![0, 0, 0, 20] : Fin 4 → Nat) a + S1x128x240x1.size a ≤ S1x128x240x24.size a
  slices_S1x128x240_o0_0_21_S1x128x219 : S1x128x240.Slices ![0, 0, 21] S1x128x219
  slices_S1x128x240_o0_0_0_S1x128x219 : S1x128x240.Slices ![0, 0, 0] S1x128x219
  concatenates_S1x128x21_S1x128x219_S1x128x240_d2 : Shape.Concatenates [S1x128x21, S1x128x219] S1x128x240 2
  inb_S1x128x240x24_S1x128x240x1_0_0_0_21 : ∀ a, (![0, 0, 0, 21] : Fin 4 → Nat) a + S1x128x240x1.size a ≤ S1x128x240x24.size a
  slices_S1x128x240_o0_0_22_S1x128x218 : S1x128x240.Slices ![0, 0, 22] S1x128x218
  slices_S1x128x240_o0_0_0_S1x128x218 : S1x128x240.Slices ![0, 0, 0] S1x128x218
  concatenates_S1x128x22_S1x128x218_S1x128x240_d2 : Shape.Concatenates [S1x128x22, S1x128x218] S1x128x240 2
  inb_S1x128x240x24_S1x128x240x1_0_0_0_22 : ∀ a, (![0, 0, 0, 22] : Fin 4 → Nat) a + S1x128x240x1.size a ≤ S1x128x240x24.size a
  slices_S1x128x240_o0_0_23_S1x128x217 : S1x128x240.Slices ![0, 0, 23] S1x128x217
  slices_S1x128x240_o0_0_0_S1x128x217 : S1x128x240.Slices ![0, 0, 0] S1x128x217
  concatenates_S1x128x23_S1x128x217_S1x128x240_d2 : Shape.Concatenates [S1x128x23, S1x128x217] S1x128x240 2
  inb_S1x128x240x24_S1x128x240x1_0_0_0_23 : ∀ a, (![0, 0, 0, 23] : Fin 4 → Nat) a + S1x128x240x1.size a ≤ S1x128x240x24.size a
  shapeCasts_S128x128x240x24_S4x32x128x240x24 : S128x128x240x24.ShapeCasts S4x32x128x240x24
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x240.size a ≤ S128x128x240.size a
  hwx0_0 : ∀ i : grid0.Coords, EltTy.bits .f32 = 32 ∨ (Rect.block (s := S128x128x240) S1x128x240.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x240.size a ≤ S128x128x240.size a
  hwx0_1 : ∀ i : grid0.Coords, EltTy.bits .f32 = 32 ∨ (Rect.block (s := S128x128x240) S1x128x240.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x240x24.size a ≤ S128x128x240x24.size a
  hwx0_2 : ∀ i : grid0.Coords, EltTy.bits .f32 = 32 ∨ (Rect.block (s := S128x128x240x24) S1x128x240x24.size (cc0_transform_2 i) (hinb0_2 i)).WholeWords (EltTy.packing .f32)

variable [Facts₀]

abbrev win0_0 : Pipeline.Window sig grid0 :=
  Pipeline.Window.ofSpec (Memref.whole main_v0) S1x128x240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x240.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x240x24.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32x128x240 : Shape := ⟨4, ![4, 32, 128, 240]⟩
abbrev S240 : Shape := ⟨1, ![240]⟩
abbrev S240x1 : Shape := ⟨2, ![240, 1]⟩
abbrev S24 : Shape := ⟨1, ![24]⟩
abbrev S1x24 : Shape := ⟨2, ![1, 24]⟩
abbrev S240x24 : Shape := ⟨2, ![240, 24]⟩
abbrev S_ : Shape := ⟨0, ![]⟩
abbrev S240x24x1 : Shape := ⟨3, ![240, 24, 1]⟩
abbrev S4x32x128x240x24 : Shape := ⟨5, ![4, 32, 128, 240, 24]⟩
abbrev S4x32x128x240x1 : Shape := ⟨5, ![4, 32, 128, 240, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x32x128x240, .f32⟩
  | .hbm, ⟨1, _⟩ => ⟨S4x32x128x240, .f32⟩
  | .hbm, ⟨2, _⟩ => ⟨S240, .i32⟩
  | .hbm, ⟨3, _⟩ => ⟨S240x1, .i32⟩
  | .hbm, ⟨4, _⟩ => ⟨S24, .i32⟩
  | .hbm, ⟨5, _⟩ => ⟨S1x24, .i32⟩
  | .hbm, ⟨6, _⟩ => ⟨S240x24, .i32⟩
  | .hbm, ⟨7, _⟩ => ⟨S240x24, .i32⟩
  | .hbm, ⟨8, _⟩ => ⟨S240x24, .i32⟩
  | .hbm, ⟨9, _⟩ => ⟨S_, .i32⟩
  | .hbm, ⟨10, _⟩ => ⟨S240x24, .i32⟩
  | .hbm, ⟨11, _⟩ => ⟨S240x24, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S240x24, .i32⟩
  | .hbm, ⟨16, _⟩ => ⟨S240x24, .i32⟩
  | .hbm, ⟨17, _⟩ => ⟨S_, .i32⟩
  | .hbm, ⟨18, _⟩ => ⟨S240x24, .i32⟩
  | .hbm, ⟨19, _⟩ => ⟨S240x24, .i32⟩
  | .hbm, ⟨20, _⟩ => ⟨S_, .i32⟩
  | .hbm, ⟨21, _⟩ => ⟨S240x24, .i32⟩
  | .hbm, ⟨22, _⟩ => ⟨S240x24, .i1⟩
  | .hbm, ⟨23, _⟩ => ⟨S_, .i32⟩
  | .hbm, ⟨24, _⟩ => ⟨S240x24, .i32⟩
  | .hbm, ⟨25, _⟩ => ⟨S240x24, .i32⟩
  | .hbm, ⟨26, _⟩ => ⟨S240x24, .i32⟩
  | .hbm, ⟨27, _⟩ => ⟨S240x24x1, .i32⟩
  | .hbm, ⟨28, _⟩ => ⟨S4x32x128x240x24, .f32⟩
  | .hbm, ⟨29, _⟩ => ⟨S4x32x128x240x1, .f32⟩
  | .hbm, ⟨30, _⟩ => ⟨S4x32x128x240x24, .f32⟩
  | .hbm, ⟨31, _⟩ => ⟨S4x32x128x240x24, .f32⟩
  | .hbm, ⟨32, _⟩ => ⟨S_, .f32⟩
  | .hbm, ⟨33, _⟩ => ⟨S4x32x128x240x24, .i1⟩
  | .hbm, ⟨34, _⟩ => ⟨S4x32x128x240x24, .f32⟩
  | .hbm, ⟨35, _⟩ => ⟨S4x32x128x240x24, .f32⟩
  | _, _ => ⟨S4x32x128x240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩

abbrev nD : Nat := 1
abbrev τ : Topo := Topo.v7x

variable {F : FTy → Type} [FloatOps F]

class Facts₀ : Prop where
  bcast_S240_S240x1_0 : S240.BroadcastsInDim S240x1 (![0] : Fin 1 → Fin S240x1.rank)
  bcast_S24_S1x24_1 : S24.BroadcastsInDim S1x24 (![1] : Fin 1 → Fin S1x24.rank)
  bcast_S240x1_S240x24_0_1 : S240x1.BroadcastsInDim S240x24 (![0, 1] : Fin 2 → Fin S240x24.rank)
  bcast_S1x24_S240x24_0_1 : S1x24.BroadcastsInDim S240x24 (![0, 1] : Fin 2 → Fin S240x24.rank)
  bcast_S_S240x24 : S_.BroadcastsInDim S240x24 (![] : Fin 0 → Fin S240x24.rank)
  bcast_S240x24_S240x24x1_0_1 : S240x24.BroadcastsInDim S240x24x1 (![0, 1] : Fin 2 → Fin S240x24x1.rank)
  bcast_S4x32x128x240_S4x32x128x240x1_0_1_2_3 : S4x32x128x240.BroadcastsInDim S4x32x128x240x1 (![0, 1, 2, 3] : Fin 4 → Fin S4x32x128x240x1.rank)
  bcast_S4x32x128x240x1_S4x32x128x240x24_0_1_2_3_4 : S4x32x128x240x1.BroadcastsInDim S4x32x128x240x24 (![0, 1, 2, 3, 4] : Fin 5 → Fin S4x32x128x240x24.rank)
  bcast_S240x24_S4x32x128x240x24_3_4 : S240x24.BroadcastsInDim S4x32x128x240x24 (![3, 4] : Fin 2 → Fin S4x32x128x240x24.rank)
  bcast_S_S4x32x128x240x24 : S_.BroadcastsInDim S4x32x128x240x24 (![] : Fin 0 → Fin S4x32x128x240x24.rank)
  gather_S4x32x128x240_S240x24x1_S4x32x128x240x24_012_3_n_n_3_2_4321281_wf : GatherDims.WF S4x32x128x240 S240x24x1 S4x32x128x240x24 [0, 1, 2] [3] [] [3] [] 2 ![4, 32, 128, 1]

variable [Facts₀]

def gather_S4x32x128x240_S240x24x1_S4x32x128x240x24_012_3_n_n_3_2_4321281 : GatherDims S4x32x128x240 S240x24x1 S4x32x128x240x24 where
  offsetDims := [0, 1, 2]
  collapsedSliceDims := [3]
  operandBatchingDims := []
  startIndicesBatchingDims := []
  startIndexMap := [3]
  indexVectorDim := 2
  sliceSizes := ![4, 32, 128, 1]
  wf := gather_S4x32x128x240_S240x24x1_S4x32x128x240x24_012_3_n_n_3_2_4321281_wf

class Facts : Prop extends Facts₀ where

variable [Facts]
-- ==== Proof.Spec.lean ====
/-
  The stereo cost volume, as one function of the two images.

  For a left and a right image of 128 rows and 240 columns and a disparity `d` below 24, the cost at column
  `w` is `left (w) - right (w - d)` where the shifted column exists (`d ≤ w`) and the zero word where the
  right image has been shifted past its left edge (`w < d`).  The same function is written three times, over the
  index sets in which the two programs meet it: a stack of `n` image planes (`shiftDiff`: one plane per grid
  point of the kernel at `n = 1`, all `4 · 32` planes at `n = 128`) and the batch-by-channel array of the
  reference (`cost`).  Nothing here needs the entries to be finite: a difference is taken entry by entry and
  never rearranged.
-/
import Idealize.ShloMosaic.PureOps.Ideal
import Idealize.ShloMosaic.Lib.ValueIdx

noncomputable section

namespace Cert.CostVolume

open Idealize.ShloMosaic Idealize.ShloMosaic.ValueIdx

/-- Column `w` moved `d` places to the left (truncated subtraction; it is only read where `d ≤ w`). -/
def shiftCol (w : Fin 240) (d : Fin 24) : Fin 240 := ⟨w.val - d.val, by omega⟩

@[simp] theorem shiftCol_val (w : Fin 240) (d : Fin 24) : (shiftCol w d).val = w.val - d.val := rfl

/-- The zero the padded region holds: the word `0x00000000` read as a float. -/
abbrev zeroWord : Ideal .f32 := Ideal.ofBits .f32 0x00000000#32

/-- One entry of the cost volume over a stack of `n` planes, by coordinates. -/
def shiftDiffAt {n : ℕ} (L R : FVec Ideal ⟨3, ![n, 128, 240]⟩ .f32) (p : Fin n) (h : Fin 128) (w : Fin 240) (d : Fin 24) :
    Ideal .f32 :=
  if d.val ≤ w.val then L (ix3 p h w) - R (ix3 p h (shiftCol w d)) else zeroWord

/-- The cost volume of a stack of `n` planes: entry `(p, h, w, d)` is `L (p, h, w) - R (p, h, w - d)` where
    `d ≤ w`, zero elsewhere. -/
def shiftDiff {n : ℕ} (L R : FVec Ideal ⟨3, ![n, 128, 240]⟩ .f32) : FVec Ideal ⟨4, ![n, 128, 240, 24]⟩ .f32 :=
  fun y => shiftDiffAt L R (y 0) (y 1) (y 2) (y 3)

theorem shiftDiff_apply {n : ℕ} (L R : FVec Ideal ⟨3, ![n, 128, 240]⟩ .f32) (p : Fin n) (h : Fin 128) (w : Fin 240)
    (d : Fin 24) : shiftDiff L R (ix4 p h w d) = shiftDiffAt L R p h w d := rfl

/-- One entry of the cost volume over the batch-by-channel arrays, by coordinates. -/
def costAt (L R : FVec Ideal ⟨4, ![4, 32, 128, 240]⟩ .f32) (b : Fin 4) (c : Fin 32) (h : Fin 128) (w : Fin 240)
    (d : Fin 24) : Ideal .f32 :=
  if d.val ≤ w.val then L (ix4 b c h w) - R (ix4 b c h (shiftCol w d)) else zeroWord

/-- The cost volume of the two image arrays: entry `(b, c, h, w, d)` is `L (b, c, h, w) - R (b, c, h, w - d)`
    where `d ≤ w`, zero elsewhere. -/
def cost (L R : FVec Ideal ⟨4, ![4, 32, 128, 240]⟩ .f32) : FVec Ideal ⟨5, ![4, 32, 128, 240, 24]⟩ .f32 :=
  fun i => costAt L R (i 0) (i 1) (i 2) (i 3) (i 4)

theorem cost_apply (L R : FVec Ideal ⟨4, ![4, 32, 128, 240]⟩ .f32) (b : Fin 4) (c : Fin 32) (h : Fin 128) (w : Fin 240)
    (d : Fin 24) : cost L R (ix5 b c h w d) = costAt L R b c h w d := rfl

end Cert.CostVolume

end
-- ==== Proof.Reshape.lean ====
/-
  The cost volume does not care how the batch and channel axes are grouped.

  The kernel's host code views the two image arrays `[4, 32, 128, 240]` as stacks of `128 = 4 · 32` planes,
  computes the cost volume of the stack, and views the result `[128, 128, 240, 24]` as `[4, 32, 128, 240, 24]`
  again.  A reshape keeps row-major positions, so plane `32 b + c` of the stack is plane `(b, c)` of the array, on
  the way in and on the way out, and the cost volume of the stack, reshaped, is the cost volume of the arrays.
-/
import proofs.«139923_j72267119722848_2_alg».proof.Proof.Spec
import Idealize.ShloMosaic.Lib.Pipeline.Value

noncomputable section

namespace Cert.CostVolume

open Idealize.ShloMosaic Idealize.ShloMosaic.ValueIdx

/-- The plane of the stack that holds batch `b`, channel `c`: row-major, `32 b + c`. -/
def plane (b : Fin 4) (c : Fin 32) : Fin 128 := ⟨b.val * 32 + c.val, by omega⟩

/-- An image array viewed as a stack of planes: plane `32 b + c` at `(h, w)` is the array at `(b, c, h, w)`. -/
theorem flatten_apply (a : FVec Ideal ⟨4, ![4, 32, 128, 240]⟩ .f32)
    (hc : (⟨4, ![4, 32, 128, 240]⟩ : Shape).ShapeCasts ⟨3, ![128, 128, 240]⟩) (b : Fin 4) (c : Fin 32) (h : Fin 128)
    (w : Fin 240) : shapeCast ⟨3, ![128, 128, 240]⟩ a hc (ix3 (plane b c) h w) = a (ix4 b c h w) :=
  shapeCast_apply a hc (ix3 (plane b c) h w) (ix4 b c h w) (by
    rw [Shape.rowMajor_val_four, Shape.rowMajor_val_three]
    show ((b.val * 32 + c.val) * 128 + h.val) * 240 + w.val = ((b.val * 32 + c.val) * 128 + h.val) * 240 + w.val
    rfl)

/-- The cost volume of the two stacks, viewed over batch and channel again, is the cost volume of the two arrays. -/
theorem unflatten_shiftDiff (a0 a1 : FVec Ideal ⟨4, ![4, 32, 128, 240]⟩ .f32)
    (hc : (⟨4, ![4, 32, 128, 240]⟩ : Shape).ShapeCasts ⟨3, ![128, 128, 240]⟩)
    (hc' : (⟨4, ![128, 128, 240, 24]⟩ : Shape).ShapeCasts ⟨5, ![4, 32, 128, 240, 24]⟩) :
    shapeCast ⟨5, ![4, 32, 128, 240, 24]⟩
        (shiftDiff (n := 128) (shapeCast ⟨3, ![128, 128, 240]⟩ a0 hc) (shapeCast ⟨3, ![128, 128, 240]⟩ a1 hc)) hc'
      = cost a0 a1 := by
  funext i
  obtain ⟨b, c, h, w, d, rfl⟩ : ∃ (b : Fin 4) (c : Fin 32) (h : Fin 128) (w : Fin 240) (d : Fin 24),
      i = ix5 b c h w d := ⟨i 0, i 1, i 2, i 3, i 4, eq_ix5 i⟩
  refine (shapeCast_apply _ hc' (ix5 b c h w d) (ix4 (plane b c) h w d) ?_).trans ?_
  · rw [Shape.rowMajor_val_four, Shape.rowMajor_val_five]
    show (((b.val * 32 + c.val) * 128 + h.val) * 240 + w.val) * 24 + d.val
      = (((b.val * 32 + c.val) * 128 + h.val) * 240 + w.val) * 24 + d.val
    rfl
  · rw [shiftDiff_apply, cost_apply]
    unfold shiftDiffAt costAt
    rw [flatten_apply, flatten_apply]

end Cert.CostVolume

end
-- ==== Proof.LibShiftPad.lean ====
/-
  Three ways of reading a rank-3 array `[P, R, W]` through a change of layout along its last axis, each at one
  index written by its coordinates.

  * A block of `n` consecutive columns starting at column `o`: its entry `(p, r, c)` is the array's entry
    `(p, r, o + c)`.
  * A constant block of `d` columns laid in front of a block `g` of `n` columns, `d + n = W`: entry `(p, r, w)`
    of the result is the constant where `w < d` and `g (p, r, w - d)` where `d ≤ w`.
  * The same array seen with a fourth axis of length one: entry `(p, r, w, 0)` is entry `(p, r, w)`, since both
    sit at the same place when the entries are counted row by row.

  Together they read a column shift with padding on the left — `w ↦ w - d`, a constant where that leaves the
  array — one entry at a time, for any element type and any sizes.
-/
import Idealize.ShloMosaic.Lib.Pipeline.Value
import Idealize.ShloMosaic.Lib.ValueIdx

noncomputable section

namespace Cert.ShiftPad

open Idealize.ShloMosaic Idealize.ShloMosaic.ValueIdx

variable {α : Type}

/-- A block of `n` columns cut from `[P, R, W]` at column `o` holds, at `(p, r, c)`, the array's entry at
    `(p, r, o + c)`: the first two coordinates are kept (their offsets are zero) and the column moves by `o`. -/
theorem slice_last_apply {P R W n : ℕ} (o : ℕ) (v : (⟨3, ![P, R, W]⟩ : Shape).Idx → α)
    (hs : (⟨3, ![P, R, W]⟩ : Shape).Slices ![0, 0, o] ⟨3, ![P, R, n]⟩)
    (p : Fin P) (r : Fin R) (c : Fin n) (hc : o + c.val < W) :
    extractStridedSlice ⟨3, ![P, R, n]⟩ ![0, 0, o] v hs (ix3 p r c) = v (ix3 p r ⟨o + c.val, hc⟩) := by
  refine extractStridedSlice_apply _ v hs _ _ (fun a => ?_)
  match a with
  | ⟨0, _⟩ => show p.val = 0 + p.val; omega
  | ⟨1, _⟩ => show r.val = 0 + r.val; omega
  | ⟨2, _⟩ => show o + c.val = o + c.val; rfl

/-- `d` columns of the constant `z` followed by the `n` columns of `g`, `d + n = W`: at column `w` the result is
    `g` at column `w - d` when `d ≤ w` (the column falls in the second block, `d` places in), and `z` when
    `w < d` (it falls in the constant block). The other two coordinates are the same on both sides. -/
theorem pad_last_apply {P R W d n : ℕ} (hdn : d + n = W) (z : α) (g : (⟨3, ![P, R, n]⟩ : Shape).Idx → α)
    (hc : Shape.Concatenates [⟨3, ![P, R, d]⟩, ⟨3, ![P, R, n]⟩] ⟨3, ![P, R, W]⟩ 2)
    (p : Fin P) (r : Fin R) (w : Fin W) :
    concatenate ⟨3, ![P, R, W]⟩ 2 [⟨⟨3, ![P, R, d]⟩, broadcast _ z⟩, ⟨⟨3, ![P, R, n]⟩, g⟩] hc (ix3 p r w)
      = if h : d ≤ w.val then g (ix3 p r ⟨w.val - d, by have := w.isLt; omega⟩) else z := by
  by_cases h : d ≤ w.val
  · -- the column is at or past `d`: second block, at `w - d`, because `(w - d) + d = w`
    rw [dif_pos h]
    refine concatenate_pair_apply_right (t := ⟨3, ![P, R, W]⟩) (s₁ := ⟨3, ![P, R, d]⟩) (s₂ := ⟨3, ![P, R, n]⟩)
      (2 : Fin 3) (broadcast _ z) g hc (ix3 p r w) rfl rfl
      (ix3 p r ⟨w.val - d, by have := w.isLt; omega⟩) (fun b hb => ?_) ?_
    · match b with
      | ⟨0, _⟩ => rfl
      | ⟨1, _⟩ => rfl
      | ⟨2, _⟩ => exact absurd rfl hb
    · show (w.val - d) + d = w.val
      omega
  · -- the column is below `d`: first block, which is the constant everywhere
    rw [dif_neg h]
    refine (concatenate_pair_apply_left (t := ⟨3, ![P, R, W]⟩) (s₁ := ⟨3, ![P, R, d]⟩) (s₂ := ⟨3, ![P, R, n]⟩)
      (2 : Fin 3) (broadcast _ z) g hc (ix3 p r w) rfl
      (ix3 p r ⟨w.val, by omega⟩) (fun b => ?_)).trans rfl
    match b with
    | ⟨0, _⟩ => rfl
    | ⟨1, _⟩ => rfl
    | ⟨2, _⟩ => rfl

/-- `[P, R, W]` seen as `[P, R, W, 1]`: the entry at `(p, r, w, e)` — `e` can only be `0` — is the entry at
    `(p, r, w)`. Counting entries row by row, the first sits at `((p · R + r) · W + w) · 1 + e` and the second at
    `(p · R + r) · W + w`, the same place. -/
theorem addUnitLast_apply {P R W : ℕ} (v : (⟨3, ![P, R, W]⟩ : Shape).Idx → α)
    (h : (⟨3, ![P, R, W]⟩ : Shape).ShapeCasts ⟨4, ![P, R, W, 1]⟩) (p : Fin P) (r : Fin R) (w : Fin W) (e : Fin 1) :
    shapeCast ⟨4, ![P, R, W, 1]⟩ v h (ix4 p r w e) = v (ix3 p r w) := by
  refine shapeCast_apply v h _ _ ?_
  rw [Shape.rowMajor_val_three, Shape.rowMajor_val_four]
  show (p.val * R + r.val) * W + w.val = ((p.val * R + r.val) * W + w.val) * 1 + e.val
  have := e.isLt
  omega

end Cert.ShiftPad

end
-- ==== Proof.Payload.lean ====
/-
  What the kernel body leaves in its output block, as one function of the block index.

  The body writes the block `[1, 128, 240, 24]` in 24 pieces, one per disparity `k`: the piece for `k` fills the
  entries `(0, h, w, k)`. For `k = 0` it holds `left (h, w) - right (h, w)`. For `k ≥ 1` it is built from the last
  `240 - k` columns of the left image and the first `240 - k` columns of the right image, subtracted entry by
  entry, with `k` columns of the zero word laid in front: at column `w ≥ k` that is
  `left (h, k + (w - k)) - right (h, w - k) = left (h, w) - right (h, w - k)`, and at column `w < k` it is the zero
  word. Both cases are the cost volume's entry `(0, h, w, k)`, so the 24 pieces are the 24 slabs of one function,
  and since they tile the block the block holds that function. No property of the entries is used: each side is
  the same difference of the same two entries.
-/
import proofs.«139923_j72267119722848_2_alg».proof.Proof.Gen.KernelIdeal.Frame
import proofs.«139923_j72267119722848_2_alg».proof.Proof.Spec
import proofs.«139923_j72267119722848_2_alg».proof.Proof.LibShiftPad
import Idealize.ShloMosaic.Lib.Pipeline.Value
import Idealize.ShloMosaic.Lib.ValueIdx

noncomputable section

namespace Cert.CostVolume.Payload

open Idealize.ShloMosaic Idealize.ShloMosaic.ValueIdx Cert.KernelIdeal Cert.KernelIdeal.Gen Cert.ShiftPad

/-! ## Reading the two images -/

/-- Reading an image through the rectangle that is the whole image gives the image. -/
theorem ld0 (x : Vec Ideal S1x128x240 .f32) : View.ld x r0_0 = x :=
  View.ld_unit_zero (by funext a; match a with | ⟨0, _⟩ => rfl | ⟨1, _⟩ => rfl | ⟨2, _⟩ => rfl) _ x

/-- Seeing the left image in its own shape changes nothing. -/
theorem pay2_eq (v : Vec Ideal S1x128x240 .f32) : k0_pay2 (F := Ideal) v = v := shapeCast_self v _

/-- Seeing the right image in its own shape changes nothing. -/
theorem pay3_eq (v : Vec Ideal S1x128x240 .f32) : k0_pay3 (F := Ideal) v = v := shapeCast_self v _

/-! ## Where a piece sits in the block -/

/-- The slab of the block at disparity `k` — offsets `(0, 0, 0, k)`, sizes `(1, 128, 240, 1)`, unit steps — puts
    its entry `(a, h, w, e)` at the block's `(0, h, w, k)`: each coordinate is offset plus one times itself, and
    `a` and `e` can only be `0`. -/
theorem emb_unit (k : ℕ) (hk : k < 24)
    (inb : ∀ a, (![0, 0, 0, k] : Fin 4 → Nat) a + S1x128x240x1.size a ≤ S1x128x240x24.size a)
    (a : Fin 1) (h : Fin 128) (w : Fin 240) (e : Fin 1) :
    (Rect.unit (s := S1x128x240x24) ![0, 0, 0, k] S1x128x240x1.size inb).emb (ix4 a h w e)
      = ix4 (0 : Fin 1) h w (⟨k, hk⟩ : Fin 24) := by
  funext b
  have ha := a.isLt
  have he := e.isLt
  match b with
  | ⟨0, _⟩ => exact Fin.ext (by show 0 + 1 * a.val = 0; omega)
  | ⟨1, _⟩ => exact Fin.ext (by show 0 + 1 * h.val = h.val; omega)
  | ⟨2, _⟩ => exact Fin.ext (by show 0 + 1 * w.val = w.val; omega)
  | ⟨3, _⟩ => exact Fin.ext (by show k + 1 * e.val = k; omega)

/-! ## One disparity -/

/-- THE PADDED SHIFTED DIFFERENCE at disparity `k`, `k + n = 240`: `k` columns of the zero word, then the last `n`
    columns of `x0` minus the first `n` columns of `x1`, seen with a fourth axis of length one, is the slab of the
    cost volume at disparity `k`. At `(0, h, w, 0)`: where `k ≤ w` the column lies in the second block at
    `w - k`, whose entry is `x0 (h, k + (w - k)) - x1 (h, 0 + (w - k)) = x0 (h, w) - x1 (h, w - k)`; where `w < k`
    it lies among the zeros. -/
theorem piece (k n : ℕ) (hk : k < 24) (hkn : k + n = 240) (x0 x1 : FVec Ideal ⟨3, ![1, 128, 240]⟩ .f32)
    (hs1 : (⟨3, ![1, 128, 240]⟩ : Shape).Slices ![0, 0, k] ⟨3, ![1, 128, n]⟩)
    (hs3 : (⟨3, ![1, 128, 240]⟩ : Shape).Slices ![0, 0, 0] ⟨3, ![1, 128, n]⟩)
    (hc : Shape.Concatenates [⟨3, ![1, 128, k]⟩, ⟨3, ![1, 128, n]⟩] ⟨3, ![1, 128, 240]⟩ 2)
    (hsc : (⟨3, ![1, 128, 240]⟩ : Shape).ShapeCasts ⟨4, ![1, 128, 240, 1]⟩)
    (inb : ∀ a, (![0, 0, 0, k] : Fin 4 → Nat) a + S1x128x240x1.size a ≤ S1x128x240x24.size a) :
    ∀ x : (Rect.unit (s := S1x128x240x24) ![0, 0, 0, k] S1x128x240x1.size inb).shape.Idx,
      shapeCast ⟨4, ![1, 128, 240, 1]⟩
        (concatenate ⟨3, ![1, 128, 240]⟩ 2
          [⟨⟨3, ![1, 128, k]⟩, broadcast ⟨3, ![1, 128, k]⟩ (Scalar.ofBits .f32 0x00000000#32 : Ideal .f32)⟩,
           ⟨⟨3, ![1, 128, n]⟩, subf (extractStridedSlice ⟨3, ![1, 128, n]⟩ ![0, 0, k] x0 hs1)
              (extractStridedSlice ⟨3, ![1, 128, n]⟩ ![0, 0, 0] x1 hs3)⟩] hc) hsc x
        = shiftDiff (n := 1) x0 x1 ((Rect.unit (s := S1x128x240x24) ![0, 0, 0, k] S1x128x240x1.size inb).emb x) := by
  intro x
  obtain ⟨a, h, w, e, rfl⟩ : ∃ (a : Fin 1) (h : Fin 128) (w : Fin 240) (e : Fin 1), x = ix4 a h w e :=
    ⟨x 0, x 1, x 2, x 3, eq_ix4 x⟩
  rw [emb_unit k hk inb a h w e, shiftDiff_apply]
  unfold shiftDiffAt
  -- drop the fourth axis, then find the column among the zeros or in the difference
  refine (addUnitLast_apply _ hsc a h w e).trans ?_
  refine (pad_last_apply hkn _ _ hc a h w).trans ?_
  obtain rfl : a = 0 := Subsingleton.elim _ _
  by_cases hle : k ≤ w.val
  · rw [dif_pos hle]
    refine Eq.trans ?_ (if_pos hle).symm
    rw [subf_apply, slice_last_apply k x0 hs1 0 h ⟨w.val - k, by have := w.isLt; omega⟩ (by have := w.isLt; show k + (w.val - k) < 240; omega),
      slice_last_apply 0 x1 hs3 0 h ⟨w.val - k, by have := w.isLt; omega⟩ (by have := w.isLt; show 0 + (w.val - k) < 240; omega)]
    -- the same two entries: `k + (w - k) = w` on the left, `0 + (w - k) = w - k` on the right
    congr 2
    · congr 1; exact Fin.ext (by show k + (w.val - k) = w.val; omega)
    · congr 1; exact Fin.ext (by show 0 + (w.val - k) = w.val - k; omega)
  · rw [dif_neg hle]
    exact (if_neg hle).symm

/-- Disparity 0: the plain difference, seen with a fourth axis of length one, is the slab at disparity 0 (there
    `0 ≤ w` always, and `w - 0 = w`). -/
theorem piece0 (x0 x1 : FVec Ideal ⟨3, ![1, 128, 240]⟩ .f32)
    (hsc : (⟨3, ![1, 128, 240]⟩ : Shape).ShapeCasts ⟨4, ![1, 128, 240, 1]⟩)
    (inb : ∀ a, (![0, 0, 0, 0] : Fin 4 → Nat) a + S1x128x240x1.size a ≤ S1x128x240x24.size a) :
    ∀ x : (Rect.unit (s := S1x128x240x24) ![0, 0, 0, 0] S1x128x240x1.size inb).shape.Idx,
      shapeCast ⟨4, ![1, 128, 240, 1]⟩ (subf x0 x1) hsc x
        = shiftDiff (n := 1) x0 x1 ((Rect.unit (s := S1x128x240x24) ![0, 0, 0, 0] S1x128x240x1.size inb).emb x) := by
  intro x
  obtain ⟨a, h, w, e, rfl⟩ : ∃ (a : Fin 1) (h : Fin 128) (w : Fin 240) (e : Fin 1), x = ix4 a h w e :=
    ⟨x 0, x 1, x 2, x 3, eq_ix4 x⟩
  rw [emb_unit 0 (by omega) inb a h w e, shiftDiff_apply]
  unfold shiftDiffAt
  refine (addUnitLast_apply _ hsc a h w e).trans ?_
  obtain rfl : a = 0 := Subsingleton.elim _ _
  refine Eq.trans ?_ (if_pos (Nat.zero_le _)).symm
  rw [subf_apply]
  congr 2

/-! ## The 24 pieces

Each is the slab of the cost volume at its disparity: the two images are read whole, and what is left is the padded
shifted difference of `piece` (of `piece0` at disparity 0) with the disparity and the block width as numbers. -/

/-- Disparity 0. -/
theorem pay4_piece (x0 x1 : Vec Ideal S1x128x240 .f32) :
    ∀ x, k0_pay4 (View.ld x0 r0_0) (View.ld x1 r0_0) x = shiftDiff (n := 1) x0 x1 (r0_1.emb x) := by
  rw [ld0, ld0]; unfold k0_pay4; rw [pay2_eq, pay3_eq]
  exact piece0 x0 x1 _ _

/-- Disparity 1. -/
theorem pay5_piece (x0 x1 : Vec Ideal S1x128x240 .f32) :
    ∀ x, k0_pay5 (View.ld x0 r0_0) (View.ld x1 r0_0) x = shiftDiff (n := 1) x0 x1 (r0_2.emb x) := by
  rw [ld0, ld0]; unfold k0_pay5; rw [pay2_eq, pay3_eq]
  exact piece 1 239 (by omega) (by omega) x0 x1 _ _ _ _ _

/-- Disparity 2. -/
theorem pay6_piece (x0 x1 : Vec Ideal S1x128x240 .f32) :
    ∀ x, k0_pay6 (View.ld x0 r0_0) (View.ld x1 r0_0) x = shiftDiff (n := 1) x0 x1 (r0_3.emb x) := by
  rw [ld0, ld0]; unfold k0_pay6; rw [pay2_eq, pay3_eq]
  exact piece 2 238 (by omega) (by omega) x0 x1 _ _ _ _ _

/-- Disparity 3. -/
theorem pay7_piece (x0 x1 : Vec Ideal S1x128x240 .f32) :
    ∀ x, k0_pay7 (View.ld x0 r0_0) (View.ld x1 r0_0) x = shiftDiff (n := 1) x0 x1 (r0_4.emb x) := by
  rw [ld0, ld0]; unfold k0_pay7; rw [pay2_eq, pay3_eq]
  exact piece 3 237 (by omega) (by omega) x0 x1 _ _ _ _ _

/-- Disparity 4: the two blocks of 236 columns arrive already cut. -/
theorem pay10_piece (x0 x1 : Vec Ideal S1x128x240 .f32) :
    ∀ x, k0_pay10 (k0_pay8 (View.ld x0 r0_0)) (k0_pay9 (View.ld x1 r0_0)) x = shiftDiff (n := 1) x0 x1 (r0_5.emb x) := by
  rw [ld0, ld0]; unfold k0_pay8 k0_pay9; rw [pay2_eq, pay3_eq]
  exact piece 4 236 (by omega) (by omega) x0 x1 _ _ _ _ _

/-- Disparity 5. -/
theorem pay11_piece (x0 x1 : Vec Ideal S1x128x240 .f32) :
    ∀ x, k0_pay11 (k0_pay2 (View.ld x0 r0_0)) (k0_pay3 (View.ld x1 r0_0)) x = shiftDiff (n := 1) x0 x1 (r0_6.emb x) := by
  rw [ld0, ld0, pay2_eq, pay3_eq]
  exact piece 5 235 (by omega) (by omega) x0 x1 _ _ _ _ _

/-- Disparity 6. -/
theorem pay12_piece (x0 x1 : Vec Ideal S1x128x240 .f32) :
    ∀ x, k0_pay12 (k0_pay2 (View.ld x0 r0_0)) (k0_pay3 (View.ld x1 r0_0)) x = shiftDiff (n := 1) x0 x1 (r0_7.emb x) := by
  rw [ld0, ld0, pay2_eq, pay3_eq]
  exact piece 6 234 (by omega) (by omega) x0 x1 _ _ _ _ _

/-- Disparity 7. -/
theorem pay13_piece (x0 x1 : Vec Ideal S1x128x240 .f32) :
    ∀ x, k0_pay13 (k0_pay2 (View.ld x0 r0_0)) (k0_pay3 (View.ld x1 r0_0)) x = shiftDiff (n := 1) x0 x1 (r0_8.emb x) := by
  rw [ld0, ld0, pay2_eq, pay3_eq]
  exact piece 7 233 (by omega) (by omega) x0 x1 _ _ _ _ _

/-- Disparity 8. -/
theorem pay14_piece (x0 x1 : Vec Ideal S1x128x240 .f32) :
    ∀ x, k0_pay14 (k0_pay2 (View.ld x0 r0_0)) (k0_pay3 (View.ld x1 r0_0)) x = shiftDiff (n := 1) x0 x1 (r0_9.emb x) := by
  rw [ld0, ld0, pay2_eq, pay3_eq]
  exact piece 8 232 (by omega) (by omega) x0 x1 _ _ _ _ _

/-- Disparity 9. -/
theorem pay15_piece (x0 x1 : Vec Ideal S1x128x240 .f32) :
    ∀ x, k0_pay15 (k0_pay2 (View.ld x0 r0_0)) (k0_pay3 (View.ld x1 r0_0)) x = shiftDiff (n := 1) x0 x1 (r0_10.emb x) := by
  rw [ld0, ld0, pay2_eq, pay3_eq]
  exact piece 9 231 (by omega) (by omega) x0 x1 _ _ _ _ _

/-- Disparity 10. -/
theorem pay16_piece (x0 x1 : Vec Ideal S1x128x240 .f32) :
    ∀ x, k0_pay16 (k0_pay2 (View.ld x0 r0_0)) (k0_pay3 (View.ld x1 r0_0)) x = shiftDiff (n := 1) x0 x1 (r0_11.emb x) := by
  rw [ld0, ld0, pay2_eq, pay3_eq]
  exact piece 10 230 (by omega) (by omega) x0 x1 _ _ _ _ _

/-- Disparity 11. -/
theorem pay17_piece (x0 x1 : Vec Ideal S1x128x240 .f32) :
    ∀ x, k0_pay17 (k0_pay2 (View.ld x0 r0_0)) (k0_pay3 (View.ld x1 r0_0)) x = shiftDiff (n := 1) x0 x1 (r0_12.emb x) := by
  rw [ld0, ld0, pay2_eq, pay3_eq]
  exact piece 11 229 (by omega) (by omega) x0 x1 _ _ _ _ _

/-- Disparity 12. -/
theorem pay18_piece (x0 x1 : Vec Ideal S1x128x240 .f32) :
    ∀ x, k0_pay18 (k0_pay2 (View.ld x0 r0_0)) (k0_pay3 (View.ld x1 r0_0)) x = shiftDiff (n := 1) x0 x1 (r0_13.emb x) := by
  rw [ld0, ld0, pay2_eq, pay3_eq]
  exact piece 12 228 (by omega) (by omega) x0 x1 _ _ _ _ _

/-- Disparity 13: the difference of the two blocks of 227 columns and the 13 columns of zeros arrive already made. -/
theorem pay21_piece (x0 x1 : Vec Ideal S1x128x240 .f32) :
    ∀ x, k0_pay21 (k0_pay19 (k0_pay2 (View.ld x0 r0_0)) (k0_pay3 (View.ld x1 r0_0))) (k0_pay20 (F := Ideal)) x
      = shiftDiff (n := 1) x0 x1 (r0_14.emb x) := by
  rw [ld0, ld0, pay2_eq, pay3_eq]
  exact piece 13 227 (by omega) (by omega) x0 x1 _ _ _ _ _

/-- Disparity 14. -/
theorem pay22_piece (x0 x1 : Vec Ideal S1x128x240 .f32) :
    ∀ x, k0_pay22 (k0_pay2 (View.ld x0 r0_0)) (k0_pay3 (View.ld x1 r0_0)) x = shiftDiff (n := 1) x0 x1 (r0_15.emb x) := by
  rw [ld0, ld0, pay2_eq, pay3_eq]
  exact piece 14 226 (by omega) (by omega) x0 x1 _ _ _ _ _

/-- Disparity 15. -/
theorem pay23_piece (x0 x1 : Vec Ideal S1x128x240 .f32) :
    ∀ x, k0_pay23 (k0_pay2 (View.ld x0 r0_0)) (k0_pay3 (View.ld x1 r0_0)) x = shiftDiff (n := 1) x0 x1 (r0_16.emb x) := by
  rw [ld0, ld0, pay2_eq, pay3_eq]
  exact piece 15 225 (by omega) (by omega) x0 x1 _ _ _ _ _

/-- Disparity 16. -/
theorem pay24_piece (x0 x1 : Vec Ideal S1x128x240 .f32) :
    ∀ x, k0_pay24 (k0_pay2 (View.ld x0 r0_0)) (k0_pay3 (View.ld x1 r0_0)) x = shiftDiff (n := 1) x0 x1 (r0_17.emb x) := by
  rw [ld0, ld0, pay2_eq, pay3_eq]
  exact piece 16 224 (by omega) (by omega) x0 x1 _ _ _ _ _

/-- Disparity 17. -/
theorem pay25_piece (x0 x1 : Vec Ideal S1x128x240 .f32) :
    ∀ x, k0_pay25 (k0_pay2 (View.ld x0 r0_0)) (k0_pay3 (View.ld x1 r0_0)) x = shiftDiff (n := 1) x0 x1 (r0_18.emb x) := by
  rw [ld0, ld0, pay2_eq, pay3_eq]
  exact piece 17 223 (by omega) (by omega) x0 x1 _ _ _ _ _

/-- Disparity 18. -/
theorem pay26_piece (x0 x1 : Vec Ideal S1x128x240 .f32) :
    ∀ x, k0_pay26 (k0_pay2 (View.ld x0 r0_0)) (k0_pay3 (View.ld x1 r0_0)) x = shiftDiff (n := 1) x0 x1 (r0_19.emb x) := by
  rw [ld0, ld0, pay2_eq, pay3_eq]
  exact piece 18 222 (by omega) (by omega) x0 x1 _ _ _ _ _

/-- Disparity 19. -/
theorem pay27_piece (x0 x1 : Vec Ideal S1x128x240 .f32) :
    ∀ x, k0_pay27 (k0_pay2 (View.ld x0 r0_0)) (k0_pay3 (View.ld x1 r0_0)) x = shiftDiff (n := 1) x0 x1 (r0_20.emb x) := by
  rw [ld0, ld0, pay2_eq, pay3_eq]
  exact piece 19 221 (by omega) (by omega) x0 x1 _ _ _ _ _

/-- Disparity 20. -/
theorem pay28_piece (x0 x1 : Vec Ideal S1x128x240 .f32) :
    ∀ x, k0_pay28 (k0_pay2 (View.ld x0 r0_0)) (k0_pay3 (View.ld x1 r0_0)) x = shiftDiff (n := 1) x0 x1 (r0_21.emb x) := by
  rw [ld0, ld0, pay2_eq, pay3_eq]
  exact piece 20 220 (by omega) (by omega) x0 x1 _ _ _ _ _

/-- Disparity 21. -/
theorem pay29_piece (x0 x1 : Vec Ideal S1x128x240 .f32) :
    ∀ x, k0_pay29 (k0_pay2 (View.ld x0 r0_0)) (k0_pay3 (View.ld x1 r0_0)) x = shiftDiff (n := 1) x0 x1 (r0_22.emb x) := by
  rw [ld0, ld0, pay2_eq, pay3_eq]
  exact piece 21 219 (by omega) (by omega) x0 x1 _ _ _ _ _

/-- Disparity 22. -/
theorem pay30_piece (x0 x1 : Vec Ideal S1x128x240 .f32) :
    ∀ x, k0_pay30 (k0_pay2 (View.ld x0 r0_0)) (k0_pay3 (View.ld x1 r0_0)) x = shiftDiff (n := 1) x0 x1 (r0_23.emb x) := by
  rw [ld0, ld0, pay2_eq, pay3_eq]
  exact piece 22 218 (by omega) (by omega) x0 x1 _ _ _ _ _

/-- Disparity 23. -/
theorem pay1_piece (x0 x1 : Vec Ideal S1x128x240 .f32) :
    ∀ x, k0_pay1 (k0_pay2 (View.ld x0 r0_0)) (k0_pay3 (View.ld x1 r0_0)) x = shiftDiff (n := 1) x0 x1 (r0_24.emb x) := by
  rw [ld0, ld0, pay2_eq, pay3_eq]
  exact piece 23 217 (by omega) (by omega) x0 x1 _ _ _ _ _

/-! ## The block -/

/-- The output block after the body is the cost volume of the two image planes: its 24 pieces are the 24 slabs of
    that one function, and they cover the block, so at every index the block holds the function's value. -/
theorem out_eq (x0 x1 : Vec Ideal S1x128x240 .f32) :
    Cert.KernelIdeal.Gen.out0_2 (F := Ideal) x0 x1 = Cert.CostVolume.shiftDiff (n := 1) x0 x1 := by
  funext y
  unfold out0_2
  refine View.canon_apply_of_pieces (Val := Elt Ideal) (S := S1x128x240x24) (e := .f32)
    (shiftDiff (n := 1) x0 x1) _ ?_ y
    (cover0_2 _ _ _ _ _ _ _ _ _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl
  · exact pay1_piece x0 x1
  · exact pay30_piece x0 x1
  · exact pay29_piece x0 x1
  · exact pay28_piece x0 x1
  · exact pay27_piece x0 x1
  · exact pay26_piece x0 x1
  · exact pay25_piece x0 x1
  · exact pay24_piece x0 x1
  · exact pay23_piece x0 x1
  · exact pay22_piece x0 x1
  · exact pay21_piece x0 x1
  · exact pay18_piece x0 x1
  · exact pay17_piece x0 x1
  · exact pay16_piece x0 x1
  · exact pay15_piece x0 x1
  · exact pay14_piece x0 x1
  · exact pay13_piece x0 x1
  · exact pay12_piece x0 x1
  · exact pay11_piece x0 x1
  · exact pay10_piece x0 x1
  · exact pay7_piece x0 x1
  · exact pay6_piece x0 x1
  · exact pay5_piece x0 x1
  · exact pay4_piece x0 x1

end Cert.CostVolume.Payload

end
-- ==== Proof.KernelValue.lean ====
/-
  What the kernel program computes: the cost volume of its two arguments.

  The program views each image array `[4, 32, 128, 240]` as a stack of 128 planes, runs the kernel once per plane,
  and views the region's output `[128, 128, 240, 24]` over batch and channel again.  Grid point `t` is handed plane
  `t` of each stack (block index `(t, 0, 0)`) and writes back block `(t, 0, 0, 0)` of the output.  The body's
  block is the cost volume of its two planes (`Payload.out_eq`), so what point `t` writes back is block `t` of the
  cost volume of the stacks; the 128 blocks tile the output array, each index lying in the block of its own first
  coordinate, so after the last write-back the array is that cost volume everywhere; and the two reshapes only
  regroup the plane axis (`unflatten_shiftDiff`).
-/
import proofs.«139923_j72267119722848_2_alg».proof.Proof.Gen.KernelIdeal.Frame
import proofs.«139923_j72267119722848_2_alg».proof.Proof.Spec
import proofs.«139923_j72267119722848_2_alg».proof.Proof.Reshape
import proofs.«139923_j72267119722848_2_alg».proof.Proof.Payload
import Idealize.ShloMosaic.Lib.Pipeline.Value
import Idealize.ShloMosaic.Lib.StableHlo.Run

noncomputable section

namespace Cert.CostVolume.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The two stacks of planes the region is entered with -/

/-- The first stack is the left image array, reshaped. -/
theorem V_v0 (c : Dev nD) : (V m c main_v0 : S128x128x240.Idx → Elt Ideal .f32)
    = shapeCast S128x128x240 (m ((c : Thread nD τ).loc main_arg0)) shapeCasts_S4x32x128x240_S128x128x240 := by
  show StableHlo.after hostOps0 (fun b => m (c, b)) (Proc.devRef .tc main_v0) = _
  after_results
  rfl

/-- The second stack is the right image array, reshaped. -/
theorem V_v1 (c : Dev nD) : (V m c main_v1 : S128x128x240.Idx → Elt Ideal .f32)
    = shapeCast S128x128x240 (m ((c : Thread nD τ).loc main_arg1)) shapeCasts_S4x32x128x240_S128x128x240 := by
  show StableHlo.after hostOps0 (fun b => m (c, b)) (Proc.devRef .tc main_v1) = _
  after_results
  rfl

/-! ## Grid point `t` works on plane `t` -/

/-- The plane a grid point works on: its own number. -/
def pt (t : Fin cfg0.N) : Fin 128 := ⟨t.val, Nat.lt_of_lt_of_eq t.isLt N_0⟩

/-- The three index maps, over the 128 grid points: block `t` on the plane axis, block `0` on every other axis. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-- Entry `(0, h, w)` of the left block at point `t` sits at `(t, h, w)` of the first stack: block index times
    block size plus the coordinate inside the block, axis by axis. -/
theorem emb0 (t : Fin cfg0.N) (h : Fin 128) (w : Fin 240) :
    ((cfg0.win 0).blk t).view.emb (ix3 (0 : Fin 1) h w) = ix3 (pt t) h w := by
  obtain ⟨e0, e1, e2, -⟩ := idx_facts t
  funext a; apply Fin.ext
  match a with
  | ⟨0, _⟩ => show win0_0.index t (0 : Fin 3) * 1 + 1 * 0 = t.val; omega
  | ⟨1, _⟩ => show win0_0.index t (1 : Fin 3) * 128 + 1 * h.val = h.val; omega
  | ⟨2, _⟩ => show win0_0.index t (2 : Fin 3) * 240 + 1 * w.val = w.val; omega

/-- The same for the right block and the second stack. -/
theorem emb1 (t : Fin cfg0.N) (h : Fin 128) (w : Fin 240) :
    ((cfg0.win 1).blk t).view.emb (ix3 (0 : Fin 1) h w) = ix3 (pt t) h w := by
  obtain ⟨-, -, -, e0, e1, e2, -⟩ := idx_facts t
  funext a; apply Fin.ext
  match a with
  | ⟨0, _⟩ => show win0_1.index t (0 : Fin 3) * 1 + 1 * 0 = t.val; omega
  | ⟨1, _⟩ => show win0_1.index t (1 : Fin 3) * 128 + 1 * h.val = h.val; omega
  | ⟨2, _⟩ => show win0_1.index t (2 : Fin 3) * 240 + 1 * w.val = w.val; omega

/-- The left block at point `t` is plane `t` of the first stack. -/
theorem iblk0_apply (c : Dev nD) (t : Fin cfg0.N) (h : Fin 128) (w : Fin 240) :
    iblk m c 0 t (ix3 (0 : Fin 1) h w) = V m c main_v0 (ix3 (pt t) h w) := by
  show V m c main_v0 (((cfg0.win 0).blk t).view.emb (ix3 (0 : Fin 1) h w)) = V m c main_v0 (ix3 (pt t) h w)
  rw [emb0]

/-- The right block at point `t` is plane `t` of the second stack. -/
theorem iblk1_apply (c : Dev nD) (t : Fin cfg0.N) (h : Fin 128) (w : Fin 240) :
    iblk m c 1 t (ix3 (0 : Fin 1) h w) = V m c main_v1 (ix3 (pt t) h w) := by
  show V m c main_v1 (((cfg0.win 1).blk t).view.emb (ix3 (0 : Fin 1) h w)) = V m c main_v1 (ix3 (pt t) h w)
  rw [emb1]

/-- Entry `j` of the output block at point `t` sits at `(t, j 1, j 2, j 3)` of the output array. -/
theorem emb2 (t : Fin cfg0.N) (j : (⟨4, ![1, 128, 240, 24]⟩ : Shape).Idx) :
    ((cfg0.win 2).blk t).view.emb j = ix4 (pt t) (j 1) (j 2) (j 3) := by
  obtain ⟨-, -, -, -, -, -, e0, e1, e2, e3⟩ := idx_facts t
  have hj0 : (j 0).val < 1 := (j 0).isLt
  funext a; apply Fin.ext
  match a with
  | ⟨0, _⟩ => show win0_2.index t (0 : Fin 4) * 1 + 1 * (j 0).val = t.val; omega
  | ⟨1, _⟩ => show win0_2.index t (1 : Fin 4) * 128 + 1 * (j 1).val = (j 1).val; omega
  | ⟨2, _⟩ => show win0_2.index t (2 : Fin 4) * 240 + 1 * (j 2).val = (j 2).val; omega
  | ⟨3, _⟩ => show win0_2.index t (3 : Fin 4) * 24 + 1 * (j 3).val = (j 3).val; omega

/-! ## From one plane to the stack -/

/-- The cost volume of one plane pair that is plane `q` of two stacks is block `q` of the stacks' cost volume:
    the cost at `(h, w, d)` reads only row `h` of its own plane. -/
theorem shiftDiff_block (X0 X1 : FVec Ideal ⟨3, ![1, 128, 240]⟩ .f32) (A0 A1 : FVec Ideal ⟨3, ![128, 128, 240]⟩ .f32)
    (q : Fin 128) (h0 : ∀ (h : Fin 128) (w : Fin 240), X0 (ix3 (0 : Fin 1) h w) = A0 (ix3 q h w))
    (h1 : ∀ (h : Fin 128) (w : Fin 240), X1 (ix3 (0 : Fin 1) h w) = A1 (ix3 q h w))
    (j : (⟨4, ![1, 128, 240, 24]⟩ : Shape).Idx) (i : (⟨4, ![128, 128, 240, 24]⟩ : Shape).Idx)
    (hi : i = ix4 q (j 1) (j 2) (j 3)) : shiftDiff X0 X1 j = shiftDiff A0 A1 i := by
  subst hi
  obtain ⟨p, h, w, d, rfl⟩ : ∃ (p : Fin 1) (h : Fin 128) (w : Fin 240) (d : Fin 24), j = ix4 p h w d :=
    ⟨j 0, j 1, j 2, j 3, eq_ix4 j⟩
  obtain rfl : p = 0 := Subsingleton.elim _ _
  show shiftDiffAt X0 X1 0 h w d = shiftDiffAt A0 A1 q h w d
  unfold shiftDiffAt
  rw [h0, h1]

/-- What grid point `t` writes back is block `t` of the stacks' cost volume. -/
theorem flushed_eq (c : Dev nD) (t : Fin cfg0.N) :
    (dats m 0 c).flushed 2 t
      = ((cfg0.win 2).blk t).view.read (Elt Ideal) (shiftDiff (n := 128) (V m c main_v0) (V m c main_v1)) := by
  show (cfg0.win 2).cut (grid0.coords t) ((dats m 0 c).after 2 t) = _
  rw [after0_2, Cert.CostVolume.Payload.out_eq]
  funext j
  exact shiftDiff_block (iblk m c 0 t) (iblk m c 1 t) (V m c main_v0) (V m c main_v1) (pt t)
    (iblk0_apply m c t) (iblk1_apply m c t) j _ (emb2 t j)

/-! ## The 128 blocks tile the output array -/

/-- An index of the output array is in point `t`'s block iff each coordinate is in the block's range on its axis. -/
theorem mem_blk (t : Fin cfg0.N) (i : S128x128x240x24.Idx) :
    i ∈ ((cfg0.win 2).blk t).view.set ↔ ∀ a : Fin 4, win0_2.index t a * S1x128x240x24.size a ≤ (i a).val
      ∧ (i a).val < win0_2.index t a * S1x128x240x24.size a + S1x128x240x24.size a := by
  show i ∈ ((View.whole main_v2).slice (win0_2.rect t)).set ↔ _
  rw [View.set_slice_whole, Rect.mem_set_unit]
  exact Iff.rfl

/-- Every index of the output array lies in the block of the grid point named by its plane coordinate. -/
theorem cover (i : S128x128x240x24.Idx) :
    ∃ t : Fin cfg0.N, (cfg0.win 2).flush t = true ∧ i ∈ ((cfg0.win 2).blk t).view.set := by
  have hi0 : (i 0).val < 128 := (i 0).isLt
  have hi1 : (i 1).val < 128 := (i 1).isLt
  have hi2 : (i 2).val < 240 := (i 2).isLt
  have hi3 : (i 3).val < 24 := (i 3).isLt
  have hN : (i 0).val < cfg0.N := by rw [show cfg0.N = 128 from N_0]; exact hi0
  refine ⟨⟨(i 0).val, hN⟩, flush0_2 _, ?_⟩
  rw [mem_blk]
  obtain ⟨-, -, -, -, -, -, e0', e1, e2, e3⟩ := idx_facts ⟨(i 0).val, hN⟩
  have e0 : win0_2.index ⟨(i 0).val, hN⟩ (0 : Fin 4) = (i 0).val := e0'
  intro a
  match a with
  | ⟨0, _⟩ => show win0_2.index _ (0 : Fin 4) * 1 ≤ (i 0).val ∧ (i 0).val < win0_2.index _ (0 : Fin 4) * 1 + 1; rw [e0]; omega
  | ⟨1, _⟩ => show win0_2.index _ (1 : Fin 4) * 128 ≤ (i 1).val ∧ (i 1).val < win0_2.index _ (1 : Fin 4) * 128 + 128; rw [e1]; omega
  | ⟨2, _⟩ => show win0_2.index _ (2 : Fin 4) * 240 ≤ (i 2).val ∧ (i 2).val < win0_2.index _ (2 : Fin 4) * 240 + 240; rw [e2]; omega
  | ⟨3, _⟩ => show win0_2.index _ (3 : Fin 4) * 24 ≤ (i 3).val ∧ (i 3).val < win0_2.index _ (3 : Fin 4) * 24 + 24; rw [e3]; omega

/-- After every write-back the region's output array is the cost volume of the two stacks of planes. -/
theorem final (c : Dev nD) :
    (dats m 0 c).arrAt 2 cfg0.N = shiftDiff (n := 128) (V m c main_v0) (V m c main_v1) :=
  (dats m 0 c).arrAt_eq_of_cover 2 _ (fun t _ => flushed_eq m c t) cover

/-! ## The program's result -/

/-- The reshape after the region, of the region's output array, is the cost volume of the two image arrays. -/
theorem tail_eq (c : Dev nD) :
    (Pipeline.afterTail₀ cfgs (dats m) 0 (V0 m) [hostOps1] c main_v3 : S4x32x128x240x24.Idx → Elt Ideal .f32)
      = cost (m ((c : Thread nD τ).loc main_arg0)) (m ((c : Thread nD τ).loc main_arg1)) := by
  unfold Pipeline.afterTail₀
  show StableHlo.after hostOps1 _ (Proc.devRef .tc main_v3) = _
  after_results
  have hW : Pipeline.withArrays (cfgs 0).spec c (V0 m c) (fun w => (dats m 0 c).arrAt w (cfgs 0).N)
      (Proc.devRef .tc main_v2) = shiftDiff (n := 128) (V m c main_v0) (V m c main_v1) :=
    (Pipeline.withArrays_arr spec0 launch0.win.arr_inj c _ _ 2).trans (final m c)
  rw [hW, V_v0, V_v1]
  exact unflatten_shiftDiff _ _ _ _

/-- The kernel program's run: every execution ends with the result array at the cost volume of the two arguments,
    and the arguments as they were. -/
theorem run : θ_run defs (onTc (τ := τ) (main (F := Ideal))) ⟨m, fun _ => 0, ρ⟩ fun r => ∀ c : Dev nD,
      r.2.mem ((c.tc : Thread nD τ).loc main_v3)
        = cost (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.CostVolume.KernelValue

end
-- ==== Proof.LibGatherLastAxis.lean ====
/-
  `stablehlo.gather` along the LAST axis of a rank-4 operand, read at an index.

  What `x[..., idx]` of an array `x : [n0, n1, n2, N]` at an integer array `idx : [R, C]` lowers to: a gather with
  offset_dims `[0, 1, 2]`, collapsed_slice_dims `[3]`, start_index_map `[3]`, index_vector_dim 2 and slice_sizes
  `[n0, n1, n2, 1]` over the indices as `[R, C, 1]`.  The three leading operand axes are copied whole, so the result
  `[n0, n1, n2, R, C]` at `(a, b, c, r, k)` is the operand at `(a, b, c, start)`, where `start` is the index word at
  `(r, k, 0)` read as a signed integer and clamped into `[0, N - 1]` (the clamp every StableHLO gather applies to a
  start index so that its slice, here of length one, fits in the operand).
-/
import Idealize.ShloMosaic.Lib.ValueIdx

noncomputable section

namespace Cert.Lib.GatherLastAxis

open Idealize.ShloMosaic Idealize.ShloMosaic.ValueIdx

variable {α : Type}

/-- The dimension numbers of a gather along the last axis of `[n0, n1, n2, N]` at start indices `[R, C, 1]`, with
    result `[n0, n1, n2, R, C]`; their well-formedness `wf` is decided on a program's literal shapes. -/
abbrev lastAxisDims (n0 n1 n2 N R C : Nat)
    (wf : GatherDims.WF ⟨4, ![n0, n1, n2, N]⟩ ⟨3, ![R, C, 1]⟩ ⟨5, ![n0, n1, n2, R, C]⟩ [0, 1, 2] [3] [] [3] [] 2
      ![n0, n1, n2, 1]) :
    GatherDims ⟨4, ![n0, n1, n2, N]⟩ ⟨3, ![R, C, 1]⟩ ⟨5, ![n0, n1, n2, R, C]⟩ where
  offsetDims := [0, 1, 2]
  collapsedSliceDims := [3]
  operandBatchingDims := []
  startIndicesBatchingDims := []
  startIndexMap := [3]
  indexVectorDim := 2
  sliceSizes := ![n0, n1, n2, 1]
  wf := wf

/-- An operand axis other than the last is not in the list `[3]`. -/
theorem not_mem_three {a : Fin 4} (h : a.val ≠ 3) : a ∉ ([3] : List (Fin 4)) :=
  fun hm => h (congrArg Fin.val (List.mem_singleton.mp hm))

section Axes
variable {n0 n1 n2 N R C w : Nat}
  (wf : GatherDims.WF ⟨4, ![n0, n1, n2, N]⟩ ⟨3, ![R, C, 1]⟩ ⟨5, ![n0, n1, n2, R, C]⟩ [0, 1, 2] [3] [] [3] [] 2
    ![n0, n1, n2, 1])
  (idx : IVec ⟨3, ![R, C, 1]⟩ w) (j : (⟨5, ![n0, n1, n2, R, C]⟩ : Shape).Idx)

/-- Operand axis 0 is neither indexed nor collapsed: the operand coordinate is the result's coordinate 0. -/
theorem operand_ax0 :
    (lastAxisDims n0 n1 n2 N R C wf).start j idx (0 : Fin 4) + (lastAxisDims n0 n1 n2 N R C wf).batchCoord j (0 : Fin 4)
      + (lastAxisDims n0 n1 n2 N R C wf).offCoord j (0 : Fin 4) = (j 0).val := by
  rw [GatherDims.batchCoord_eq_zero _ _ _ List.not_mem_nil]
  unfold GatherDims.start
  rw [dif_neg (not_mem_three (a := 0) (by decide))]
  unfold GatherDims.offCoord
  rw [dif_pos ((GatherDims.mem_sKept _ _).mpr ⟨not_mem_three (a := 0) (by decide), List.not_mem_nil⟩)]
  simp only [Nat.add_zero, Nat.zero_add]
  rfl

/-- Operand axis 1 likewise reads the result's coordinate 1. -/
theorem operand_ax1 :
    (lastAxisDims n0 n1 n2 N R C wf).start j idx (1 : Fin 4) + (lastAxisDims n0 n1 n2 N R C wf).batchCoord j (1 : Fin 4)
      + (lastAxisDims n0 n1 n2 N R C wf).offCoord j (1 : Fin 4) = (j 1).val := by
  rw [GatherDims.batchCoord_eq_zero _ _ _ List.not_mem_nil]
  unfold GatherDims.start
  rw [dif_neg (not_mem_three (a := 1) (by decide))]
  unfold GatherDims.offCoord
  rw [dif_pos ((GatherDims.mem_sKept _ _).mpr ⟨not_mem_three (a := 1) (by decide), List.not_mem_nil⟩)]
  simp only [Nat.add_zero, Nat.zero_add]
  rfl

/-- Operand axis 2 likewise reads the result's coordinate 2. -/
theorem operand_ax2 :
    (lastAxisDims n0 n1 n2 N R C wf).start j idx (2 : Fin 4) + (lastAxisDims n0 n1 n2 N R C wf).batchCoord j (2 : Fin 4)
      + (lastAxisDims n0 n1 n2 N R C wf).offCoord j (2 : Fin 4) = (j 2).val := by
  rw [GatherDims.batchCoord_eq_zero _ _ _ List.not_mem_nil]
  unfold GatherDims.start
  rw [dif_neg (not_mem_three (a := 2) (by decide))]
  unfold GatherDims.offCoord
  rw [dif_pos ((GatherDims.mem_sKept _ _).mpr ⟨not_mem_three (a := 2) (by decide), List.not_mem_nil⟩)]
  simp only [Nat.add_zero, Nat.zero_add]
  rfl

end Axes

/-- The last operand axis is the indexed, collapsed one: the operand coordinate is the start index at `(r, k, 0)`,
    read signed and clamped into `[0, N - 1]`. -/
theorem operand_ax3 {n0 n1 n2 N R C w : Nat}
    (wf : GatherDims.WF ⟨4, ![n0, n1, n2, N]⟩ ⟨3, ![R, C, 1]⟩ ⟨5, ![n0, n1, n2, R, C]⟩ [0, 1, 2] [3] [] [3] [] 2
      ![n0, n1, n2, 1])
    (idx : IVec ⟨3, ![R, C, 1]⟩ w) (a : Fin n0) (b : Fin n1) (c : Fin n2) (r : Fin R) (k : Fin C) :
    (lastAxisDims n0 n1 n2 N R C wf).start (ix5 a b c r k) idx (3 : Fin 4)
      + (lastAxisDims n0 n1 n2 N R C wf).batchCoord (ix5 a b c r k) (3 : Fin 4)
      + (lastAxisDims n0 n1 n2 N R C wf).offCoord (ix5 a b c r k) (3 : Fin 4)
      = min (idx (ix3 r k (0 : Fin 1))).toInt.toNat (N - 1) := by
  have hmem : (3 : Fin 4) ∈ ([3] : List (Fin 4)) := List.mem_singleton.mpr rfl
  rw [GatherDims.batchCoord_eq_zero _ _ _ List.not_mem_nil,
    GatherDims.offCoord_eq_zero _ _ _ (fun hm => ((GatherDims.mem_sKept _ _).mp hm).1 hmem)]
  simp only [Nat.add_zero]
  unfold GatherDims.start
  rw [dif_pos hmem]
  have hsi : (lastAxisDims n0 n1 n2 N R C wf).siIdx (ix5 a b c r k)
      ⟨List.idxOf (3 : Fin 4) (lastAxisDims n0 n1 n2 N R C wf).startIndexMap, List.idxOf_lt_length_iff.2 hmem⟩
      = ix3 r k (0 : Fin 1) := by
    funext e; refine Fin.ext ?_
    match e with
    | ⟨0, _⟩ => rfl
    | ⟨1, _⟩ => rfl
    | ⟨2, _⟩ => rfl
  rw [hsi]
  rfl

/-- THE GATHER READ AT `(a, b, c, r, k)`: the operand at `(a, b, c, start)`, `start` the index word at `(r, k, 0)`
    read signed and clamped into `[0, N - 1]`. -/
theorem gather_lastAxis_apply {n0 n1 n2 N R C w : Nat} (hN : 0 < N)
    (wf : GatherDims.WF ⟨4, ![n0, n1, n2, N]⟩ ⟨3, ![R, C, 1]⟩ ⟨5, ![n0, n1, n2, R, C]⟩ [0, 1, 2] [3] [] [3] [] 2
      ![n0, n1, n2, 1])
    (x : (⟨4, ![n0, n1, n2, N]⟩ : Shape).Idx → α) (idx : IVec ⟨3, ![R, C, 1]⟩ w)
    (a : Fin n0) (b : Fin n1) (c : Fin n2) (r : Fin R) (k : Fin C) :
    Host.gather (lastAxisDims n0 n1 n2 N R C wf) x idx (ix5 a b c r k)
      = x (ix4 a b c ⟨min (idx (ix3 r k (0 : Fin 1))).toInt.toNat (N - 1), by omega⟩) := by
  unfold Host.gather
  congr 1
  funext e
  refine Fin.ext ?_
  match e with
  | ⟨0, _⟩ => exact operand_ax0 wf idx _
  | ⟨1, _⟩ => exact operand_ax1 wf idx _
  | ⟨2, _⟩ => exact operand_ax2 wf idx _
  | ⟨3, _⟩ => exact operand_ax3 wf idx a b c r k

end Cert.Lib.GatherLastAxis

end
-- ==== Proof.RefValue.lean ====
/-
  The reference program computes the cost volume of Spec.lean, entry by entry.

  The reference builds the integer table `w - d` (column minus disparity, as 32-bit words), marks an entry valid where
  that difference is non-negative as a signed number, clips the table into `[0, 239]`, gathers the right image along its
  last axis at the clipped table, subtracts the gathered image from the left image, and keeps the difference where the
  entry is valid and the zero word elsewhere.  Since `w < 240` and `d < 24`, the word `w - d` read as a signed number IS
  the integer `w - d`: nothing wraps.  So where `d ≤ w` the entry is valid, the clip changes nothing, and the gather reads
  column `w - d`: the entry is `left (w) - right (w - d)`.  Where `w < d` the entry is not valid and the zero word is
  selected, whatever the gather has read.  The two sides are the same difference entry by entry, so no entry needs to
  be finite.
-/
import proofs.«139923_j72267119722848_2_alg».proof.Proof.Gen.ReferenceIdeal.Read
import proofs.«139923_j72267119722848_2_alg».proof.Proof.Spec
import proofs.«139923_j72267119722848_2_alg».proof.Proof.LibGatherLastAxis
import Idealize.ShloMosaic.Lib.ValueIdx

noncomputable section

namespace Cert.CostVolume.RefValue

open Idealize.ShloMosaic Idealize.ShloMosaic.ValueIdx Cert.ReferenceIdeal Cert.ReferenceIdeal.Read

variable {F : FTy → Type} [FloatOps F]

/-! ## The integer table, as words and as signed numbers -/

/-- A natural number below 240, written as a 32-bit word and read back signed, is itself. -/
theorem toInt_small (n : Nat) (h : n < 240) : (BitVec.ofNat 32 n).toInt = (n : Int) := by
  rw [BitVec.toInt_eq_toNat_of_lt (by rw [BitVec.toNat_ofNat]; omega), BitVec.toNat_ofNat]
  omega

/-- The table entry at `(w, d)` is the word `w` minus the word `d`: the two broadcast iotas, subtracted. -/
theorem v6_at (w : Fin 240) (d : Fin 24) :
    val_main_v6 (F := F) (ix2 w d) = BitVec.ofNat 32 w.val - BitVec.ofNat 32 d.val := by
  rw [val_main_v6_apply, val_main_v4_apply, val_main_v1_apply, val_main_v0_apply, val_main_v5_apply,
    val_main_v3_apply, val_main_v2_apply]
  rfl

/-- Read signed, the table entry at `(w, d)` is the integer `w - d`: it lies in `[-23, 239]`, far inside the signed
    32-bit range, so the subtraction of words does not wrap. -/
theorem v6_toInt (w : Fin 240) (d : Fin 24) :
    (val_main_v6 (F := F) (ix2 w d)).toInt = (w.val : Int) - (d.val : Int) := by
  rw [v6_at, BitVec.toInt_sub, toInt_small _ w.isLt, toInt_small _ (by omega)]
  have := w.isLt
  have := d.isLt
  exact Int.bmod_eq_of_le_mul_two (by omega) (by omega)

/-! ## The validity bit: `0 ≤ w - d` as signed numbers, which is `d ≤ w` -/

/-- Where `d ≤ w` the entry is valid. -/
theorem v8_at_le (w : Fin 240) (d : Fin 24) (h : d.val ≤ w.val) :
    val_main_v8 (F := F) (ix2 w d) = 1#1 := by
  rw [val_main_v8_apply, val_main_v7_apply, val_main_c_apply]
  unfold IntOp.cmpi
  show BitVec.ofBool ((0#32).sle (val_main_v6 (F := F) (ix2 w d))) = 1#1
  rw [BitVec.sle_eq_decide, v6_toInt]
  have : ((0#32 : BitVec 32).toInt ≤ (w.val : Int) - (d.val : Int)) := by
    rw [show (0#32 : BitVec 32).toInt = 0 from rfl]; omega
  rw [decide_eq_true this]; rfl

/-- Where `w < d` the entry is not valid. -/
theorem v8_at_lt (w : Fin 240) (d : Fin 24) (h : w.val < d.val) :
    val_main_v8 (F := F) (ix2 w d) = 0#1 := by
  rw [val_main_v8_apply, val_main_v7_apply, val_main_c_apply]
  unfold IntOp.cmpi
  show BitVec.ofBool ((0#32).sle (val_main_v6 (F := F) (ix2 w d))) = 0#1
  rw [BitVec.sle_eq_decide, v6_toInt]
  have : ¬ ((0#32 : BitVec 32).toInt ≤ (w.val : Int) - (d.val : Int)) := by
    rw [show (0#32 : BitVec 32).toInt = 0 from rfl]; omega
  rw [decide_eq_false this]; rfl

/-! ## The clipped table -/

/-- Where `d ≤ w` the clip into `[0, 239]` and the wrap of negative indices (add 240 where the clipped entry is
    negative) both leave the entry as it is: `0 ≤ w - d ≤ 239` as signed numbers, so the maximum with 0 and the minimum
    with 239 return the entry, and the clipped entry is not below 0. -/
theorem v14_at_le (w : Fin 240) (d : Fin 24) (h : d.val ≤ w.val) :
    val_main_v14 (F := F) (ix2 w d) = val_main_v6 (F := F) (ix2 w d) := by
  have ht := v6_toInt (F := F) w d
  have hw := w.isLt
  have h0 : (val_main_v6 (F := F) (ix2 w d)).slt 0#32 = false := by
    rw [BitVec.slt_eq_decide, ht]
    exact decide_eq_false (by rw [show (0#32 : BitVec 32).toInt = 0 from rfl]; omega)
  have h239 : (239#32 : BitVec 32).slt (val_main_v6 (F := F) (ix2 w d)) = false := by
    rw [BitVec.slt_eq_decide, ht]
    exact decide_eq_false (by rw [show (239#32 : BitVec 32).toInt = 239 from by decide]; omega)
  have h9 : val_main_v9 (F := F) (ix2 w d) = val_main_v6 (F := F) (ix2 w d) := by
    rw [val_main_v9_apply, val_main_call0_v4_apply, val_main_call0_v3_apply, val_main_c_1_apply,
      val_main_call0_v2_apply, val_main_call0_v1_apply, val_main_call0_v0_apply, val_main_c_0_apply]
    unfold IntOp.maxsi
    rw [h0, if_neg (by decide)]
    unfold IntOp.minsi
    rw [h239, if_neg (by decide)]
  rw [val_main_v14_apply, val_main_v11_apply, h9, val_main_v10_apply, val_main_c_2_apply]
  unfold IntOp.cmpi
  show Scalar.select (BitVec.ofBool ((val_main_v6 (F := F) (ix2 w d)).slt 0#32)) _ _ = _
  rw [h0]
  exact select_zero _ _

/-- Where `d ≤ w` the start index the gather uses at `(w, d)` (the clipped entry read signed, clamped into
    `[0, 239]`) is the column `w - d`. -/
theorem start_at_le (w : Fin 240) (d : Fin 24) (hle : d.val ≤ w.val) :
    min (val_main_v15 (F := F) (ix3 w d (0 : Fin 1))).toInt.toNat 239 = w.val - d.val := by
  have hi : idx_main_v15 (ix3 w d (0 : Fin 1)) = ix2 w d := by
    funext a
    match a with
    | ⟨0, _⟩ => rfl
    | ⟨1, _⟩ => rfl
  rw [val_main_v15_apply, hi, v14_at_le w d hle, v6_toInt]
  have := w.isLt
  omega

/-! ## The gather -/

/-- The reference's gather read at `(b, c, h, w, d)`: the operand at `(b, c, h, start)`, `start` the index word at
    `(w, d, 0)` read signed and clamped into `[0, 239]`.  It is the gather along the last axis of a rank-4 operand. -/
theorem gather_at {α : Type} {n : Nat} (x : S4x32x128x240.Idx → α) (idx : IVec S240x24x1 n)
    (b : Fin 4) (c : Fin 32) (h : Fin 128) (w : Fin 240) (d : Fin 24) :
    Host.gather gather_S4x32x128x240_S240x24x1_S4x32x128x240x24_012_3_n_n_3_2_4321281 x idx (ix5 b c h w d)
      = x (ix4 b c h ⟨min (idx (ix3 w d (0 : Fin 1))).toInt.toNat 239, by omega⟩) :=
  Cert.Lib.GatherLastAxis.gather_lastAxis_apply (by decide)
    Cert.ReferenceIdeal.Gen.gather_S4x32x128x240_S240x24x1_S4x32x128x240x24_012_3_n_n_3_2_4321281_wf x idx b c h w d

/-! ## The reference is the cost volume -/

/-- Entry `(b, c, h, w, d)` of the reference's result is `left (b, c, h, w) - right (b, c, h, w - d)` where `d ≤ w` and
    the zero word where `w < d`: the cost volume of the two images. -/
theorem ref_eq (x0 x1 : FVec Ideal S4x32x128x240 .f32) :
    Cert.ReferenceIdeal.Read.val_main_v20 (F := Ideal) x0 x1 = Cert.CostVolume.cost x0 x1 := by
  funext i
  obtain ⟨b, c, h, w, d, rfl⟩ : ∃ (b : Fin 4) (c : Fin 32) (h : Fin 128) (w : Fin 240) (d : Fin 24),
      i = ix5 b c h w d := ⟨i 0, i 1, i 2, i 3, i 4, eq_ix5 i⟩
  rw [cost_apply, val_main_v20_apply, val_main_call1_v0_apply]
  -- the validity bit is broadcast along the three image axes: entry (b, c, h, w, d) reads it at (w, d)
  have hidx : idx_main_call1_v0 (ix5 b c h w d) = ix2 w d := by
    funext a
    match a with
    | ⟨0, _⟩ => rfl
    | ⟨1, _⟩ => rfl
  rw [hidx]
  unfold costAt
  by_cases hle : d.val ≤ w.val
  · -- valid: the difference of the left image, broadcast along d, and the gathered right image
    rw [v8_at_le w d hle, select_one, if_pos hle, val_main_v19_apply, val_main_v18_apply, val_main_v17_apply]
    have e0 : idx_main_v17 (idx_main_v18 (ix5 b c h w d)) = ix4 b c h w := by
      funext a
      match a with
      | ⟨0, _⟩ => rfl
      | ⟨1, _⟩ => rfl
      | ⟨2, _⟩ => rfl
      | ⟨3, _⟩ => rfl
    have e1 : val_main_v16 (F := Ideal) x1 (ix5 b c h w d) = x1 (ix4 b c h (shiftCol w d)) := by
      unfold val_main_v16
      refine (gather_at x1 _ b c h w d).trans ?_
      exact congrArg (fun z => x1 (ix4 b c h z)) (Fin.ext (start_at_le w d hle))
    rw [e0, e1]
    rfl
  · -- not valid: the broadcast zero word
    rw [v8_at_lt w d (by omega), select_zero, if_neg hle, val_main_call1_v1_apply, val_main_cst_apply]
    rfl

end Cert.CostVolume.RefValue

end
-- ==== Proof.lean ====
/-
  A stereo cost volume: for two image arrays `left`, `right : [4, 32, 128, 240]` and 24 disparities,
  `out (b, c, h, w, d) = left (b, c, h, w) - right (b, c, h, w - d)` where `d ≤ w`, and zero where the right
  image has been shifted past its left edge (`w < d`).

  The kernel works plane by plane (one grid point per batch-and-channel pair): for each disparity it subtracts the
  right plane's first `240 - d` columns from the left plane's last `240 - d`, pads `d` zero columns in front, and
  stores the result as column `d` of the output block.  The reference builds the column numbers `w - d` as 32-bit
  words, clips them to `[0, 239]`, gathers the right image at them, subtracts, and selects zero where `w - d` is
  negative.  Entry by entry both are the same difference of the same two input entries (or the same zero word):
  nothing is rearranged, so no property of the inputs is used, and the claim holds over the extended reals as it
  stands.  `Spec` states the common function, `Payload` and `KernelValue` show the kernel program computes it,
  `RefValue` that the reference does.  The idealized kernel is the kernel's own text read over the extended reals,
  so `preserves` is trivial; the three frames are the programs' runs with the results dropped.
-/
import proofs.«139923_j72267119722848_2_alg».proof.Defs
import proofs.«139923_j72267119722848_2_alg».proof.Proof.Gen.Kernel
import proofs.«139923_j72267119722848_2_alg».proof.Proof.Gen.Kernel.Skeleton
import proofs.«139923_j72267119722848_2_alg».proof.Proof.Gen.Kernel.Launch
import proofs.«139923_j72267119722848_2_alg».proof.Proof.Gen.Kernel.Points
import proofs.«139923_j72267119722848_2_alg».proof.Proof.Gen.Kernel.Frame
import proofs.«139923_j72267119722848_2_alg».proof.Proof.Gen.KernelIdeal
import proofs.«139923_j72267119722848_2_alg».proof.Proof.Gen.KernelIdeal.Skeleton
import proofs.«139923_j72267119722848_2_alg».proof.Proof.Gen.KernelIdeal.Launch
import proofs.«139923_j72267119722848_2_alg».proof.Proof.Gen.KernelIdeal.Points
import proofs.«139923_j72267119722848_2_alg».proof.Proof.Gen.KernelIdeal.Frame
import proofs.«139923_j72267119722848_2_alg».proof.Proof.Gen.ReferenceIdeal
import proofs.«139923_j72267119722848_2_alg».proof.Proof.Gen.ReferenceIdeal.Run
import proofs.«139923_j72267119722848_2_alg».proof.Proof.Gen.ReferenceIdeal.Read
import proofs.«139923_j72267119722848_2_alg».proof.Proof.Gen.Pre_finite_inputs
import proofs.«139923_j72267119722848_2_alg».proof.Proof.KernelValue
import proofs.«139923_j72267119722848_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to its idealization: nothing to preserve. -/
theorem preserves : Cert.preserves_Kernel_KernelIdeal := trivial

/-- From memories that agree on the two images, the kernel program ends at the cost volume of its arguments
    (`KernelValue.run`) and the reference at its composed term (`Value.run`), which is the cost volume of the same
    two images (`RefValue.ref_eq`). -/
theorem algebraic : Cert.algebraic_KernelIdeal_ReferenceIdeal := by
  intro m ρ m' ρ' _ hagree
  refine ⟨_, Cert.CostVolume.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.CostVolume.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
